-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v63)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v63) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v106) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S2x800000 : Shape := ⟨2, ![2, 800000]⟩
abbrev S4096 : Shape := ⟨1, ![4096]⟩
abbrev S256x128 : Shape := ⟨2, ![256, 128]⟩
abbrev S128 : Shape := ⟨1, ![128]⟩
abbrev S128x128 : Shape := ⟨2, ![128, 128]⟩
abbrev S128x12 : Shape := ⟨2, ![128, 12]⟩
abbrev S12 : Shape := ⟨1, ![12]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x12 : S_.BroadcastsInDim S128x12 (![] : Fin 0 → Fin S128x12.rank)
  reducesTo_S128x12_S_d0_1 : S128x12.ReducesTo [0, 1] S_
  bcast_S_S12 : S_.BroadcastsInDim S12 (![] : Fin 0 → Fin S12.rank)
  reducesTo_S12_S_d0 : S12.ReducesTo [0] S_

variable [Facts]

def fn_part1 {F : FTy → Type} [FloatOps F] (main_arg6 : FVec F S128 .f32) (main_arg7 : FVec F S128x12 .f32) (main_arg8 : FVec F S12 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x12 .f32 := Host.absf main_arg7
  let main_cst_8 : FVec F S_ .f32 := constant S_ .f32 0x7F800000#32
  let main_v25 : FVec F S128x12 .f32 := broadcastInDim S128x12 ![] bcast_S_S128x12 main_cst_8
  let main_v26 : IVec S128x12 1 := cmpf .olt main_v24 main_v25
  let main_c_9 : IVec S_ 1 := constantI S_ 1 1#1
  let main_v27 : IVec S_ 1 := (fun x v => Host.reduce IntOp.andi x v reducesTo_S128x12_S_d0_1 h_S_) main_v26 main_c_9
  let main_v28 : IVec S_ 1 := andi main_v23 main_v27
  let main_v29 : FVec F S12 .f32 := Host.absf main_arg8
  let main_cst_10 : FVec F S_ .f32 := constant S_ .f32 0x7F800000#32
  let main_v30 : FVec F S12 .f32 := broadcastInDim S12 ![] bcast_S_S12 main_cst_10
  let main_v31 : IVec S12 1 := cmpf .olt main_v29 main_v30
  let main_c_11 : IVec S_ 1 := constantI S_ 1 1#1
  let main_v32 : IVec S_ 1 := (fun x v => Host.reduce IntOp.andi x v reducesTo_S12_S_d0 h_S_) main_v31 main_c_11
  let main_v33 : IVec S_ 1 := andi main_v28 main_v32
  main_v33

def fn {F : FTy → Type} [FloatOps F] (main_arg0 : FVec F S50000x256 .f32) (main_arg1 : IVec S2x800000 32) (main_arg2 : IVec S4096 32) (main_arg3 : FVec F S256x128 .f32) (main_arg4 : FVec F S128 .f32) (main_arg5 : FVec F S128x128 .f32) (main_arg6 : FVec F S128 .f32) (main_arg7 : FVec F S128x12 .f32) (main_arg8 : FVec F S12 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S256x128 .f32 := Host.absf main_arg3
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_v13 main_v16
-- ==== Kernel.lean ====
abbrev S50000x256 : Shape := ⟨2, ![50000, 256]⟩
abbrev S2x800000 : Shape := ⟨2, ![2, 800000]⟩
abbrev S4096 : Shape := ⟨1, ![4096]⟩
abbrev S256x128 : Shape := ⟨2, ![256, 128]⟩
abbrev S128 : Shape := ⟨1, ![128]⟩
abbrev S128x128 : Shape := ⟨2, ![128, 128]⟩
abbrev S128x12 : Shape := ⟨2, ![128, 12]⟩
abbrev S12 : Shape := ⟨1, ![12]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x1 : Shape := ⟨2, ![50000, 1]⟩
abbrev S50000x128 : Shape := ⟨2, ![50000, 128]⟩
abbrev S5000x256 : Shape := ⟨2, ![5000, 256]⟩
abbrev S5000x1 : Shape := ⟨2, ![5000, 1]⟩
abbrev S5000x128 : Shape := ⟨2, ![5000, 128]⟩
abbrev S850000x128 : Shape := ⟨2, ![850000, 128]⟩
abbrev S1x128 : Shape := ⟨2, ![1, 128]⟩
abbrev S4096x1 : Shape := ⟨2, ![4096, 1]⟩
abbrev S4096x128 : Shape := ⟨2, ![4096, 128]⟩
abbrev S4096x12 : Shape := ⟨2, ![4096, 12]⟩
abbrev S1x12 : Shape := ⟨2, ![1, 12]⟩

abbrev nBuf : Space → Nat
  | .hbm => 90
  | .vmem => 15
  | .smem => 0
  | _ => 0

abbrev bufTy : (tb : Table) → Fin (tcTables nBuf tb) → BufTy
  | .hbm, ⟨0, _⟩ => ⟨S50000x256, .f32⟩
  | .hbm, ⟨1, _⟩ => ⟨S2x800000, .i32⟩
  | .hbm, ⟨2, _⟩ => ⟨S4096, .i32⟩
  | .hbm, ⟨3, _⟩ => ⟨S256x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x12, .f32⟩
  | .hbm, ⟨8, _⟩ => ⟨S12, .f32⟩
  | .hbm, ⟨9, _⟩ => ⟨S50000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S1x800000, .i32⟩
  | .hbm, ⟨14, _⟩ => ⟨S800000, .i32⟩
  | .hbm, ⟨15, _⟩ => ⟨S850000, .i32⟩
  | .hbm, ⟨16, _⟩ => ⟨S_, .f32⟩
  | .hbm, ⟨17, _⟩ => ⟨S850000, .f32⟩
  | .hbm, ⟨18, _⟩ => ⟨S_, .f32⟩
  | .hbm, ⟨19, _⟩ => ⟨S50000, .f32⟩
  | .hbm, ⟨20, _⟩ => ⟨S850000x1, .i32⟩
  | .hbm, ⟨21, _⟩ => ⟨S50000, .f32⟩
  | .hbm, ⟨22, _⟩ => ⟨S_, .f32⟩
  | .hbm, ⟨23, _⟩ => ⟨S50000, .f32⟩
  | .hbm, ⟨24, _⟩ => ⟨S50000, .i1⟩
  | .hbm, ⟨25, _⟩ => ⟨S50000, .f32⟩
  | .hbm, ⟨26, _⟩ => ⟨S_, .f32⟩
  | .hbm, ⟨27, _⟩ => ⟨S_, .f32⟩
  | .hbm, ⟨28, _⟩ => ⟨S50000, .f32⟩
  | .hbm, ⟨29, _⟩ => ⟨S50000, .f32⟩
  | .hbm, ⟨30, _⟩ => ⟨S50000x1, .f32⟩
  | .hbm, ⟨31, _⟩ => ⟨S50000x128, .f32⟩
  | .hbm, ⟨32, _⟩ => ⟨S_, .i32⟩
  | .hbm, ⟨33, _⟩ => ⟨S850000, .i32⟩
  | .hbm, ⟨34, _⟩ => ⟨S850000, .i1⟩
  | .hbm, ⟨35, _⟩ => ⟨S_, .i32⟩
  | .hbm, ⟨36, _⟩ => ⟨S850000, .i32⟩
  | .hbm, ⟨37, _⟩ => ⟨S850000, .i32⟩
  | .hbm, ⟨38, _⟩ => ⟨S850000, .i32⟩
  | .hbm, ⟨39, _⟩ => ⟨S850000x1, .i32⟩
  | .hbm, ⟨40, _⟩ => ⟨S850000x128, .f32⟩
  | .hbm, ⟨41, _⟩ => ⟨S_, .f32⟩
  | .hbm, ⟨42, _⟩ => ⟨S50000x128, .f32⟩
  | .hbm, ⟨43, _⟩ => ⟨S850000x1, .i32⟩
  | .hbm, ⟨44, _⟩ => ⟨S50000x128, .f32⟩
  | .hbm, ⟨45, _⟩ => ⟨S1x128, .f32⟩
  | .hbm, ⟨46, _⟩ => ⟨S50000x128, .f32⟩
  | .hbm, ⟨47, _⟩ => ⟨S_, .i32⟩
  | .hbm, ⟨48, _⟩ => ⟨S850000, .i32⟩
  | .hbm, ⟨49, _⟩ => ⟨S850000, .i1⟩
  | .hbm, ⟨50, _⟩ => ⟨S_, .i32⟩
  | .hbm, ⟨51, _⟩ => ⟨S850000, .i32⟩
  | .hbm, ⟨52, _⟩ => ⟨S850000, .i32⟩
  | .hbm, ⟨53, _⟩ => ⟨S850000, .i32⟩
  | .hbm, ⟨54, _⟩ => ⟨S850000x1, .i32⟩
  | .hbm, ⟨55, _⟩ => ⟨S850000x128, .f32⟩
  | .hbm, ⟨56, _⟩ => ⟨S_, .f32⟩
  | .hbm, ⟨57, _⟩ => ⟨S50000x128, .f32⟩
  | .hbm, ⟨58, _⟩ => ⟨S850000x1, .i32⟩
  | .hbm, ⟨59, _⟩ => ⟨S50000x128, .f32⟩
  | .hbm, ⟨60, _⟩ => ⟨S_, .i32⟩
  | .hbm, ⟨61, _⟩ => ⟨S4096, .i32⟩
  | .hbm, ⟨62, _⟩ => ⟨S4096, .i1⟩
  | .hbm, ⟨63, _⟩ => ⟨S_, .i32⟩
  | .hbm, ⟨64, _⟩ => ⟨S4096, .i32⟩
  | .hbm, ⟨65, _⟩ => ⟨S4096, .i32⟩
  | .hbm, ⟨66, _⟩ => ⟨S4096, .i32⟩
  | .hbm, ⟨67, _⟩ => ⟨S4096x1, .i32⟩
  | .hbm, ⟨68, _⟩ => ⟨S4096x128, .f32⟩
  | .hbm, ⟨69, _⟩ => ⟨S_, .i32⟩
  | .hbm, ⟨70, _⟩ => ⟨S4096, .i32⟩
  | .hbm, ⟨71, _⟩ => ⟨S4096, .i1⟩
  | .hbm, ⟨72, _⟩ => ⟨S_, .i32⟩
  | .hbm, ⟨73, _⟩ => ⟨S4096, .i32⟩
  | .hbm, ⟨74, _⟩ => ⟨S4096, .i32⟩
  | .hbm, ⟨75, _⟩ => ⟨S4096, .i32⟩
  | .hbm, ⟨76, _⟩ => ⟨S4096x1, .i32⟩
  | .hbm, ⟨77, _⟩ => ⟨S4096x1, .f32⟩
  | .hbm, ⟨78, _⟩ => ⟨S1x128, .f32⟩
  | .hbm, ⟨79, _⟩ => ⟨S4096x128, .f32⟩
  | .hbm, ⟨80, _⟩ => ⟨S4096x128, .f32⟩
  | .hbm, ⟨81, _⟩ => ⟨S4096x128, .f32⟩
  | .hbm, ⟨82, _⟩ => ⟨S4096x128, .f32⟩
  | .hbm, ⟨83, _⟩ => ⟨S_, .f32⟩
  | .hbm, ⟨84, _⟩ => ⟨S4096x128, .f32⟩
  | .hbm, ⟨85, _⟩ => ⟨S4096x128, .f32⟩
  | .hbm, ⟨86, _⟩ => ⟨S4096x12, .f32⟩
  | .hbm, ⟨87, _⟩ => ⟨S1x12, .f32⟩
  | .hbm, ⟨88, _⟩ => ⟨S4096x12, .f32⟩
  | .hbm, ⟨89, _⟩ => ⟨S4096x12, .f32⟩
  | .local _ .vmem, ⟨0, _⟩ => ⟨S5000x256, .f32⟩
  | .local _ .vmem, ⟨1, _⟩ => ⟨S5000x256, .f32⟩
  | .local _ .vmem, ⟨2, _⟩ => ⟨S256x128, .f32⟩
  | .local _ .vmem, ⟨3, _⟩ => ⟨S5000x1, .f32⟩
  | .local _ .vmem, ⟨4, _⟩ => ⟨S5000x1, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x1, .f32⟩
  | .local _ .vmem, ⟨10, _⟩ => ⟨S5000x1, .f32⟩
  | .local _ .vmem, ⟨11, _⟩ => ⟨S1x128, .f32⟩
  | .local _ .vmem, ⟨12, _⟩ => ⟨S128x128, .f32⟩
  | .local _ .vmem, ⟨13, _⟩ => ⟨S5000x128, .f32⟩
  | .local _ .vmem, ⟨14, _⟩ => ⟨S5000x128, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_c : Ref sig .tc := ⟨.hbm, 32, rfl⟩
abbrev main_v17 : Ref sig .tc := ⟨.hbm, 33, rfl⟩
abbrev main_v18 : Ref sig .tc := ⟨.hbm, 34, rfl⟩
abbrev main_c_3 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst_4 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_c_5 : Ref sig .tc := ⟨.hbm, 47, rfl⟩
abbrev main_v29 : Ref sig .tc := ⟨.hbm, 48, rfl⟩
abbrev main_v30 : Ref sig .tc := ⟨.hbm, 49, rfl⟩
abbrev main_c_6 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_7 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_c_8 : Ref sig .tc := ⟨.hbm, 60, rfl⟩
abbrev main_v39 : Ref sig .tc := ⟨.hbm, 61, rfl⟩
abbrev main_v40 : Ref sig .tc := ⟨.hbm, 62, rfl⟩
abbrev main_c_9 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_c_10 : Ref sig .tc := ⟨.hbm, 69, rfl⟩
abbrev main_v46 : Ref sig .tc := ⟨.hbm, 70, rfl⟩
abbrev main_v47 : Ref sig .tc := ⟨.hbm, 71, rfl⟩
abbrev main_c_11 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_cst_12 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem4_1 : DmaSem sig := 14

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  shapeCasts_S50000_S50000x1 : S50000.ShapeCasts S50000x1
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  inb_S5000x128_S5000x128_0_0 : ∀ a, (![0, 0] : Fin 2 → Nat) a + S5000x128.size a ≤ S5000x128.size a
  h_S5000x128 : 0 < S5000x128.numel
  bcast_S_S50000x128 : S_.BroadcastsInDim S50000x128 (![] : Fin 0 → Fin S50000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x128_S128x128_0_0 : ∀ a, (![0, 0] : Fin 2 → Nat) a + S128x128.size a ≤ S128x128.size a
  h_S128x128 : 0 < S128x128.numel
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x128_0_1 : S4096x1.BroadcastsInDim S4096x128 (![0, 1] : Fin 2 → Fin S4096x128.rank)
  bcast_S1x128_S4096x128_0_1 : S1x128.BroadcastsInDim S4096x128 (![0, 1] : Fin 2 → Fin S4096x128.rank)
  bcast_S_S4096x128 : S_.BroadcastsInDim S4096x128 (![] : Fin 0 → Fin S4096x128.rank)
  bcast_S12_S1x12_1 : S12.BroadcastsInDim S1x12 (![1] : Fin 1 → Fin S1x12.rank)
  bcast_S1x12_S4096x12_0_1 : S1x12.BroadcastsInDim S4096x12 (![0, 1] : Fin 2 → Fin S4096x12.rank)
  scatter_S50000_S850000x1_S850000_n_0_0_1_wf : ScatterDims.WF S50000 S850000x1 S850000 [] [0] [0] 1
  dot_S5000x256_S256x128_S5000x128_1_0_0_1_n_n_wf : DotDims.WF S5000x256 S256x128 S5000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S5000x128_S128x128_S5000x128_1_0_0_1_n_n_wf : DotDims.WF S5000x128 S128x128 S5000x128 [1] [0] [0] [1] [] []
  gather_S50000x128_S4096x1_S4096x128_1_0_n_n_0_1_1128_wf : GatherDims.WF S50000x128 S4096x1 S4096x128 [1] [0] [] [0] [] 1 ![1, 128]
  gather_S50000x1_S4096x1_S4096x1_1_0_n_n_0_1_11_wf : GatherDims.WF S50000x1 S4096x1 S4096x1 [1] [0] [] [0] [] 1 ![1, 1]
  dot_S4096x128_S128x12_S4096x12_1_0_0_1_n_n_wf : DotDims.WF S4096x128 S128x12 S4096x12 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S50000x256.size a
  hwx0_0 : ∀ i : grid0.Coords, EltTy.bits .f32 = 32 ∨ (Rect.block (s := S50000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S50000x1.size a
  hwx0_2 : ∀ i : grid0.Coords, EltTy.bits .f32 = 32 ∨ (Rect.block (s := S50000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .f32 = 32 ∨ (Rect.block (s := S50000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S50000x1.size a
  hwx1_1 : ∀ i : grid1.Coords, EltTy.bits .f32 = 32 ∨ (Rect.block (s := S50000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S50000x128.size a
  hwx1_4 : ∀ i : grid1.Coords, EltTy.bits .f32 = 32 ∨ (Rect.block (s := S50000x128) S5000x128.size (cc1_transform_4 i) (hinb1_4 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S4096x1_S4096x128_1_0_n_n_0_1_1128 : GatherDims S50000x128 S4096x1 S4096x128 where
  offsetDims := [1]
  collapsedSliceDims := [0]
  operandBatchingDims := []
  startIndicesBatchingDims := []
  startIndexMap := [0]
  indexVectorDim := 1
  sliceSizes := ![1, 128]
  wf := gather_S50000x128_S4096x1_S4096x128_1_0_n_n_0_1_1128_wf
def gather_S50000x1_S4096x1_S4096x1_1_0_n_n_0_1_11 : GatherDims S50000x1 S4096x1 S4096x1 where
  offsetDims := [1]
  collapsedSliceDims := [0]
  operandBatchingDims := []
  startIndicesBatchingDims := []
  startIndexMap := [0]
  indexVectorDim := 1
  sliceSizes := ![1, 1]
  wf := gather_S50000x1_S4096x1_S4096x1_1_0_n_n_0_1_11_wf
def dot_S4096x128_S128x12_S4096x12_1_0_0_1_n_n : DotDims S4096x128 S128x12 S4096x12 where
  lhsContracting := [1]
  rhsContracting := [0]
  lhsNonContracting := [0]
  rhsNonContracting := [1]
  lhsBatch := []
  rhsBatch := []
  wf := dot_S4096x128_S128x12_S4096x12_1_0_0_1_n_n_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v16) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v26) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v27) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v28) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S50000x256 : Shape := ⟨2, ![50000, 256]⟩
abbrev S2x800000 : Shape := ⟨2, ![2, 800000]⟩
abbrev S4096 : Shape := ⟨1, ![4096]⟩
abbrev S256x128 : Shape := ⟨2, ![256, 128]⟩
abbrev S128 : Shape := ⟨1, ![128]⟩
abbrev S128x128 : Shape := ⟨2, ![128, 128]⟩
abbrev S128x12 : Shape := ⟨2, ![128, 12]⟩
abbrev S12 : Shape := ⟨1, ![12]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x128 : Shape := ⟨2, ![50000, 128]⟩
abbrev S850000x128 : Shape := ⟨2, ![850000, 128]⟩
abbrev S1x128 : Shape := ⟨2, ![1, 128]⟩
abbrev S4096x1 : Shape := ⟨2, ![4096, 1]⟩
abbrev S4096x128 : Shape := ⟨2, ![4096, 128]⟩
abbrev S4096x12 : Shape := ⟨2, ![4096, 12]⟩
abbrev S1x12 : Shape := ⟨2, ![1, 12]⟩

abbrev nBuf : Space → Nat
  | .hbm => 148
  | .vmem => 0
  | .smem => 0
  | _ => 0

abbrev hbmTy0_0 (i : Nat) : BufTy := match i % 128 with
  | 0 => ⟨S50000x256, .f32⟩
  | 1 => ⟨S2x800000, .i32⟩
  | 2 => ⟨S4096, .i32⟩
  | 3 => ⟨S256x128, .f32⟩
  | 4 => ⟨S128, .f32⟩
  | 5 => ⟨S128x128, .f32⟩
  | 6 => ⟨S128, .f32⟩
  | 7 => ⟨S128x12, .f32⟩
  | 8 => ⟨S12, .f32⟩
  | 9 => ⟨S50000, .i32⟩
  | 10 => ⟨S1x800000, .i32⟩
  | 11 => ⟨S800000, .i32⟩
  | 12 => ⟨S850000, .i32⟩
  | 13 => ⟨S1x800000, .i32⟩
  | 14 => ⟨S800000, .i32⟩
  | 15 => ⟨S850000, .i32⟩
  | 16 => ⟨S_, .f32⟩
  | 17 => ⟨S850000, .f32⟩
  | 18 => ⟨S_, .f32⟩
  | 19 => ⟨S50000, .f32⟩
  | 20 => ⟨S850000x1, .i32⟩
  | 21 => ⟨S50000, .f32⟩
  | 22 => ⟨S_, .f32⟩
  | 23 => ⟨S50000, .f32⟩
  | 24 => ⟨S50000, .i1⟩
  | 25 => ⟨S50000, .f32⟩
  | 26 => ⟨S_, .f32⟩
  | 27 => ⟨S_, .f32⟩
  | 28 => ⟨S50000, .f32⟩
  | 29 => ⟨S50000, .f32⟩
  | 30 => ⟨S_, .i32⟩
  | 31 => ⟨S850000, .i32⟩
  | 32 => ⟨S850000, .i1⟩
  | 33 => ⟨S_, .i32⟩
  | 34 => ⟨S850000, .i32⟩
  | 35 => ⟨S850000, .i32⟩
  | 36 => ⟨S850000, .i32⟩
  | 37 => ⟨S850000x1, .i32⟩
  | 38 => ⟨S850000, .f32⟩
  | 39 => ⟨S_, .i32⟩
  | 40 => ⟨S850000, .i32⟩
  | 41 => ⟨S850000, .i1⟩
  | 42 => ⟨S_, .i32⟩
  | 43 => ⟨S850000, .i32⟩
  | 44 => ⟨S850000, .i32⟩
  | 45 => ⟨S850000, .i32⟩
  | 46 => ⟨S850000x1, .i32⟩
  | 47 => ⟨S850000, .f32⟩
  | 48 => ⟨S850000, .f32⟩
  | 49 => ⟨S50000x128, .f32⟩
  | 50 => ⟨S_, .i32⟩
  | 51 => ⟨S850000, .i32⟩
  | 52 => ⟨S850000, .i1⟩
  | 53 => ⟨S_, .i32⟩
  | 54 => ⟨S850000, .i32⟩
  | 55 => ⟨S850000, .i32⟩
  | 56 => ⟨S850000, .i32⟩
  | 57 => ⟨S850000x1, .i32⟩
  | 58 => ⟨S850000x128, .f32⟩
  | 59 => ⟨S850000x1, .f32⟩
  | 60 => ⟨S850000x128, .f32⟩
  | 61 => ⟨S850000x128, .f32⟩
  | 62 => ⟨S_, .f32⟩
  | 63 => ⟨S50000x128, .f32⟩
  | 64 => ⟨S850000x1, .i32⟩
  | 65 => ⟨S50000x128, .f32⟩
  | 66 => ⟨S1x128, .f32⟩
  | 67 => ⟨S50000x128, .f32⟩
  | 68 => ⟨S50000x128, .f32⟩
  | 69 => ⟨S_, .f32⟩
  | 70 => ⟨S50000x128, .f32⟩
  | 71 => ⟨S50000x128, .f32⟩
  | 72 => ⟨S50000, .i32⟩
  | 73 => ⟨S1x800000, .i32⟩
  | 74 => ⟨S800000, .i32⟩
  | 75 => ⟨S850000, .i32⟩
  | 76 => ⟨S1x800000, .i32⟩
  | 77 => ⟨S800000, .i32⟩
  | 78 => ⟨S850000, .i32⟩
  | 79 => ⟨S_, .f32⟩
  | 80 => ⟨S850000, .f32⟩
  | 81 => ⟨S_, .f32⟩
  | 82 => ⟨S50000, .f32⟩
  | 83 => ⟨S850000x1, .i32⟩
  | 84 => ⟨S50000, .f32⟩
  | 85 => ⟨S_, .f32⟩
  | 86 => ⟨S50000, .f32⟩
  | 87 => ⟨S50000, .i1⟩
  | 88 => ⟨S50000, .f32⟩
  | 89 => ⟨S_, .f32⟩
  | 90 => ⟨S_, .f32⟩
  | 91 => ⟨S50000, .f32⟩
  | 92 => ⟨S50000, .f32⟩
  | 93 => ⟨S_, .i32⟩
  | 94 => ⟨S850000, .i32⟩
  | 95 => ⟨S850000, .i1⟩
  | 96 => ⟨S_, .i32⟩
  | 97 => ⟨S850000, .i32⟩
  | 98 => ⟨S850000, .i32⟩
  | 99 => ⟨S850000, .i32⟩
  | 100 => ⟨S850000x1, .i32⟩
  | 101 => ⟨S850000, .f32⟩
  | 102 => ⟨S_, .i32⟩
  | 103 => ⟨S850000, .i32⟩
  | 104 => ⟨S850000, .i1⟩
  | 105 => ⟨S_, .i32⟩
  | 106 => ⟨S850000, .i32⟩
  | 107 => ⟨S850000, .i32⟩
  | 108 => ⟨S850000, .i32⟩
  | 109 => ⟨S850000x1, .i32⟩
  | 110 => ⟨S850000, .f32⟩
  | 111 => ⟨S850000, .f32⟩
  | 112 => ⟨S50000x128, .f32⟩
  | 113 => ⟨S_, .i32⟩
  | 114 => ⟨S850000, .i32⟩
  | 115 => ⟨S850000, .i1⟩
  | 116 => ⟨S_, .i32⟩
  | 117 => ⟨S850000, .i32⟩
  | 118 => ⟨S850000, .i32⟩
  | 119 => ⟨S850000, .i32⟩
  | 120 => ⟨S850000x1, .i32⟩
  | 121 => ⟨S850000x128, .f32⟩
  | 122 => ⟨S850000x1, .f32⟩
  | 123 => ⟨S850000x128, .f32⟩
  | 124 => ⟨S850000x128, .f32⟩
  | 125 => ⟨S_, .f32⟩
  | 126 => ⟨S50000x128, .f32⟩
  | 127 => ⟨S850000x1, .i32⟩
  | _ => ⟨S50000x256, .f32⟩

abbrev hbmTy0_1 (i : Nat) : BufTy := match i % 128 with
  | 0 => ⟨S50000x128, .f32⟩
  | 1 => ⟨S1x128, .f32⟩
  | 2 => ⟨S50000x128, .f32⟩
  | 3 => ⟨S50000x128, .f32⟩
  | 4 => ⟨S_, .f32⟩
  | 5 => ⟨S50000x128, .f32⟩
  | 6 => ⟨S50000x128, .f32⟩
  | 7 => ⟨S_, .i32⟩
  | 8 => ⟨S4096, .i32⟩
  | 9 => ⟨S4096, .i1⟩
  | 10 => ⟨S_, .i32⟩
  | 11 => ⟨S4096, .i32⟩
  | 12 => ⟨S4096, .i32⟩
  | 13 => ⟨S4096, .i32⟩
  | 14 => ⟨S4096x1, .i32⟩
  | 15 => ⟨S4096x128, .f32⟩
  | 16 => ⟨S4096x12, .f32⟩
  | 17 => ⟨S1x12, .f32⟩
  | 18 => ⟨S4096x12, .f32⟩
  | 19 => ⟨S4096x12, .f32⟩
  | _ => ⟨S50000x256, .f32⟩

abbrev hbmTy (i : Nat) : BufTy := match i / 128 with
  | 0 => hbmTy0_0 i
  | 1 => hbmTy0_1 i
  | _ => ⟨S50000x256, .f32⟩

abbrev bufTy : (tb : Table) → Fin (tcTables nBuf tb) → BufTy
  | .hbm, ⟨i, _⟩ => hbmTy i
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v14 : Ref sig .tc := ⟨.hbm, 29, rfl⟩
abbrev main_c : Ref sig .tc := ⟨.hbm, 30, rfl⟩
abbrev main_v15 : Ref sig .tc := ⟨.hbm, 31, rfl⟩
abbrev main_v16 : Ref sig .tc := ⟨.hbm, 32, rfl⟩
abbrev main_c_3 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_c_4 : Ref sig .tc := ⟨.hbm, 39, rfl⟩
abbrev main_v22 : Ref sig .tc := ⟨.hbm, 40, rfl⟩
abbrev main_v23 : Ref sig .tc := ⟨.hbm, 41, rfl⟩
abbrev main_c_5 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_c_6 : Ref sig .tc := ⟨.hbm, 50, rfl⟩
abbrev main_v31 : Ref sig .tc := ⟨.hbm, 51, rfl⟩
abbrev main_v32 : Ref sig .tc := ⟨.hbm, 52, rfl⟩
abbrev main_c_7 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_8 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_call1_cst : Ref sig .tc := ⟨.hbm, 69, rfl⟩
abbrev main_call1_v0 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_cst_9 : Ref sig .tc := ⟨.hbm, 79, rfl⟩
abbrev main_v55 : Ref sig .tc := ⟨.hbm, 80, rfl⟩
abbrev main_cst_10 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_cst_11 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_cst_12 : Ref sig .tc := ⟨.hbm, 89, rfl⟩
abbrev main_call2_v0 : Ref sig .tc := ⟨.hbm, 90, rfl⟩
abbrev main_call2_v1 : Ref sig .tc := ⟨.hbm, 91, rfl⟩
abbrev main_v62 : Ref sig .tc := ⟨.hbm, 92, rfl⟩
abbrev main_c_13 : Ref sig .tc := ⟨.hbm, 93, rfl⟩
abbrev main_v63 : Ref sig .tc := ⟨.hbm, 94, rfl⟩
abbrev main_v64 : Ref sig .tc := ⟨.hbm, 95, rfl⟩
abbrev main_c_14 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_c_15 : Ref sig .tc := ⟨.hbm, 102, rfl⟩
abbrev main_v70 : Ref sig .tc := ⟨.hbm, 103, rfl⟩
abbrev main_v71 : Ref sig .tc := ⟨.hbm, 104, rfl⟩
abbrev main_c_16 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_c_17 : Ref sig .tc := ⟨.hbm, 113, rfl⟩
abbrev main_v79 : Ref sig .tc := ⟨.hbm, 114, rfl⟩
abbrev main_v80 : Ref sig .tc := ⟨.hbm, 115, rfl⟩
abbrev main_c_18 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_cst_19 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_call3_cst : Ref sig .tc := ⟨.hbm, 132, rfl⟩
abbrev main_call3_v0 : Ref sig .tc := ⟨.hbm, 133, rfl⟩
abbrev main_v95 : Ref sig .tc := ⟨.hbm, 134, rfl⟩
abbrev main_c_20 : Ref sig .tc := ⟨.hbm, 135, rfl⟩
abbrev main_v96 : Ref sig .tc := ⟨.hbm, 136, rfl⟩
abbrev main_v97 : Ref sig .tc := ⟨.hbm, 137, rfl⟩
abbrev main_c_21 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev main_v102 : Ref sig .tc := ⟨.hbm, 143, rfl⟩
abbrev main_v103 : Ref sig .tc := ⟨.hbm, 144, rfl⟩
abbrev main_v104 : Ref sig .tc := ⟨.hbm, 145, rfl⟩
abbrev main_v105 : Ref sig .tc := ⟨.hbm, 146, rfl⟩
abbrev main_v106 : Ref sig .tc := ⟨.hbm, 147, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S4096 : S_.BroadcastsInDim S4096 (![] : Fin 0 → Fin S4096.rank)
  bcast_S4096_S4096x1_0 : S4096.BroadcastsInDim S4096x1 (![0] : Fin 1 → Fin S4096x1.rank)
  bcast_S12_S1x12_1 : S12.BroadcastsInDim S1x12 (![1] : Fin 1 → Fin S1x12.rank)
  bcast_S1x12_S4096x12_0_1 : S1x12.BroadcastsInDim S4096x12 (![0, 1] : Fin 2 → Fin S4096x12.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x256_S256x128_S50000x128_1_0_0_1_n_n_wf : DotDims.WF S50000x256 S256x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S50000x128_S128x128_S50000x128_1_0_0_1_n_n_wf : DotDims.WF S50000x128 S128x128 S50000x128 [1] [0] [0] [1] [] []
  gather_S50000x128_S4096x1_S4096x128_1_0_n_n_0_1_1128_wf : GatherDims.WF S50000x128 S4096x1 S4096x128 [1] [0] [] [0] [] 1 ![1, 128]
  dot_S4096x128_S128x12_S4096x12_1_0_0_1_n_n_wf : DotDims.WF S4096x128 S128x12 S4096x12 [1] [0] [0] [1] [] []

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S4096x1_S4096x128_1_0_n_n_0_1_1128 : GatherDims S50000x128 S4096x1 S4096x128 where
  offsetDims := [1]
  collapsedSliceDims := [0]
  operandBatchingDims := []
  startIndicesBatchingDims := []
  startIndexMap := [0]
  indexVectorDim := 1
  sliceSizes := ![1, 128]
  wf := gather_S50000x128_S4096x1_S4096x128_1_0_n_n_0_1_1128_wf
def dot_S4096x128_S128x12_S4096x12_1_0_0_1_n_n : DotDims S4096x128 S128x12 S4096x12 where
  lhsContracting := [1]
  rhsContracting := [0]
  lhsNonContracting := [0]
  rhsNonContracting := [1]
  lhsBatch := []
  rhsBatch := []
  wf := dot_S4096x128_S128x12_S4096x12_1_0_0_1_n_n_wf

class Facts : Prop extends Facts₀ where

variable [Facts]
-- ==== Proof.ResultRun.lean ====
/-
  The idealized kernel's run with its RESULT named. From any memory with zero counters every weakly fair execution of
  the program terminates without a fault; in its final state the result array holds what the last stretch of host
  operations leaves in it — the fold `W7` of the program's segments (three stretches of host operations, the first
  pallas_call, a stretch, the second pallas_call, a last stretch) read at the result buffer — and every argument array
  is as launched. It is the frame statement with one more buffer read off the final thread state: the frame keeps every
  unscoped buffer at the last boundary's contents, and the result buffer is one of them.
-/
import proofs.«165701_j63737314673104_2_alg».proof.Proof.Gen.KernelIdeal.Frame

set_option maxRecDepth 16384

noncomputable section

namespace Cert.KernelIdeal.ResultRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting; the result array ends at the last boundary's contents
    `W7` and each argument array as launched. -/
theorem run : θ_run defs (onTc (τ := τ) (main (F := F))) ⟨m, fun _ => 0, ρ⟩ (fun r => ∀ c : Dev nD,
      r.2.mem ((c.tc : Thread nD τ).loc main_v63) = W7 m ρ c (Proc.devRef .tc main_v63)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v63 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c),
       (h c _ (mem_uc main_arg7 (by decide))).trans (W7_main_arg7 m ρ c),
       (h c _ (mem_uc main_arg8 (by decide))).trans (W7_main_arg8 m ρ c)⟩)

end Cert.KernelIdeal.ResultRun

end
-- ==== Proof.KernelBoundary.lean ====
/-
  What the idealized kernel's buffers hold at each boundary of its @main, as pure functions of the argument arrays.

  @main is: a stretch of host operations (the source and target words of every edge, self loops appended; each node's
  degree as a scatter-add of ones; the normalising factor `1/√deg` where the degree is positive and `0` elsewhere; the
  factor as a column), the first pallas_call, a stretch (gather the scaled rows at the sources, scatter-add them at the
  targets), the second pallas_call, and a last stretch (gather and scatter-add again; then, at the target rows only,
  scale, add the bias, clamp at zero, multiply by the head's matrix and add its bias). A buffer that no operation of a
  stretch writes, and that a pallas_call does not write back, keeps its contents across it; so every buffer an operation
  reads walks back to the stretch that wrote it, or to the launch memory.
-/
import proofs.«165701_j63737314673104_2_alg».proof.Proof.Gen.KernelIdeal.Frame
import Idealize.ShloMosaic.Lib.StableHlo.Run
import Idealize.ShloMosaic.PureOps.Ideal
import Idealize.ShloMosaic.PureOps.Ideal.Laws

set_option maxRecDepth 16384

noncomputable section

namespace Cert.KernelIdeal.Boundary

open Cert.KernelIdeal Cert.KernelIdeal.Gen
open Idealize.ShloMosaic Idealize.ShloMosaic.TcCoe Idealize.SL.Sem Idealize.ShloMosaic.StableHlo

/-! ## The values, as functions of the argument arrays -/

/-- The source word of every edge: row 0 of the edge list, then one self loop per node. -/
def srcWords (x1 : IVec S2x800000 32) : IVec S850000 32 :=
  concatenate S850000 0 [⟨S800000, shapeCast S800000 (extractStridedSlice S1x800000 ![0, 0] x1 slices_S2x800000_S1x800000_0_0) shapeCasts_S1x800000_S800000⟩, ⟨S50000, iotaInDim S50000 32 0⟩] concatenates_S800000_S50000_S850000_d0

/-- The target word of every edge: row 1 of the edge list, then one self loop per node. -/
def dstWords (x1 : IVec S2x800000 32) : IVec S850000 32 :=
  concatenate S850000 0 [⟨S800000, shapeCast S800000 (extractStridedSlice S1x800000 ![1, 0] x1 slices_S2x800000_S1x800000_1_0) shapeCasts_S1x800000_S800000⟩, ⟨S50000, iotaInDim S50000 32 0⟩] concatenates_S800000_S50000_S850000_d0

/-- Each node's degree: the sum of a one per edge whose target it is. -/
def degree (x1 : IVec S2x800000 32) : FVec Ideal S50000 .f32 :=
  Host.scatterAdd (F := Ideal) scatter_S50000_S850000x1_S850000_n_0_0_1
    (broadcastInDim S50000 ![] bcast_S_S50000 (constant (F := Ideal) S_ .f32 0x00000000#32))
    (broadcastInDim S850000x1 ![0] bcast_S850000_S850000x1_0 (dstWords x1))
    (broadcastInDim S850000 ![] bcast_S_S850000 (constant (F := Ideal) S_ .f32 0x3F800000#32))

/-- Each node's normalising factor: `1/√deg` where the degree is positive, `0` elsewhere. -/
def factor (x1 : IVec S2x800000 32) : FVec Ideal S50000 .f32 :=
  select (cmpf (F := Ideal) .ogt (degree x1) (broadcastInDim S50000 ![] bcast_S_S50000 (constant (F := Ideal) S_ .f32 0x00000000#32)))
    (Host.rsqrt (F := Ideal) (degree x1))
    (broadcastInDim S50000 ![] bcast_S_S50000 (constant (F := Ideal) S_ .f32 0x00000000#32))

/-- The factors as a column. -/
def factorCol (x1 : IVec S2x800000 32) : FVec Ideal S50000x1 .f32 :=
  shapeCast S50000x1 (factor x1) shapeCasts_S50000_S50000x1

/-- Row indices from words: a negative word counts from the end (`+ 50000`); as a column of start indices. -/
def rowStarts (v : IVec S850000 32) : IVec S850000x1 32 :=
  broadcastInDim S850000x1 ![0] bcast_S850000_S850000x1_0
    (select (cmpi .slt v (broadcastInDim S850000 ![] bcast_S_S850000 (constantI S_ 32 0#32)))
      (addi v (broadcastInDim S850000 ![] bcast_S_S850000 (constantI S_ 32 50000#32))) v)

/-- The same for the 4096 target words. -/
def targetStarts (v : IVec S4096 32) : IVec S4096x1 32 :=
  broadcastInDim S4096x1 ![0] bcast_S4096_S4096x1_0
    (select (cmpi .slt v (broadcastInDim S4096 ![] bcast_S_S4096 (constantI S_ 32 0#32)))
      (addi v (broadcastInDim S4096 ![] bcast_S_S4096 (constantI S_ 32 50000#32))) v)

/-- One aggregation: gather the rows of `h` at the edges' sources and add each into its edge's target row. -/
def aggregate (x1 : IVec S2x800000 32) (h : FVec Ideal S50000x128 .f32) : FVec Ideal S50000x128 .f32 :=
  Host.scatterAdd (F := Ideal) scatter_S50000x128_S850000x1_S850000x128_1_0_0_1
    (broadcastInDim S50000x128 ![] bcast_S_S50000x128 (constant (F := Ideal) S_ .f32 0x00000000#32))
    (broadcastInDim S850000x1 ![0] bcast_S850000_S850000x1_0 (dstWords x1))
    (Host.gather gather_S50000x128_S850000x1_S850000x128_1_0_n_n_0_1_1128 h (rowStarts (srcWords x1)))

/-- The head's rows, at the target rows only: the aggregated rows scaled by their factors, plus the bias, clamped at zero. -/
def headRows (x2 : IVec S4096 32) (raw : FVec Ideal S50000x128 .f32) (d : FVec Ideal S50000x1 .f32)
    (b2 : FVec Ideal S128 .f32) : FVec Ideal S4096x128 .f32 :=
  maximumf (F := Ideal)
    (addf (F := Ideal)
      (mulf (F := Ideal)
        (Host.gather gather_S50000x128_S4096x1_S4096x128_1_0_n_n_0_1_1128 raw (targetStarts x2))
        (broadcastInDim S4096x128 ![0, 1] bcast_S4096x1_S4096x128_0_1
          (Host.gather gather_S50000x1_S4096x1_S4096x1_1_0_n_n_0_1_11 d (targetStarts x2))))
      (broadcastInDim S4096x128 ![0, 1] bcast_S1x128_S4096x128_0_1 (shapeCast S1x128 b2 shapeCasts_S128_S1x128)))
    (broadcastInDim S4096x128 ![] bcast_S_S4096x128 (constant (F := Ideal) S_ .f32 0x00000000#32))

/-- The head: its rows times the head's matrix, plus the head's bias. -/
def head (x2 : IVec S4096 32) (raw : FVec Ideal S50000x128 .f32) (d : FVec Ideal S50000x1 .f32)
    (b2 : FVec Ideal S128 .f32) (wr : FVec Ideal S128x12 .f32) (br : FVec Ideal S12 .f32) : FVec Ideal S4096x12 .f32 :=
  addf (F := Ideal)
    (Host.dotGeneral (F := Ideal) dot_S4096x128_S128x12_S4096x12_1_0_0_1_n_n none (headRows x2 raw d b2) wr)
    (broadcastInDim S4096x12 ![0, 1] bcast_S1x12_S4096x12_0_1 (broadcastInDim S1x12 ![1] bcast_S12_S1x12_1 br))

variable (m : (ℓ : Loc nD τ sig) → Buf (Elt Ideal) ℓ) (ρ : Dev nD → PrngReg)

/-- What the first pallas_call leaves in its output array. -/
abbrev layer1Out (c : Dev nD) : FVec Ideal S50000x128 .f32 := (dat0 (V3 m ρ) c).arrAt 3 cfg0.N
/-- What the second pallas_call leaves in its output array. -/
abbrev layer2Out (c : Dev nD) : FVec Ideal S50000x128 .f32 := (dat1 (V5 m ρ) c).arrAt 4 cfg1.N

/-! ## At the first pallas_call's entry (after the first three stretches) -/
theorem W3_arg0 (c : Dev nD) : W3 m ρ c (Proc.devRef .tc main_arg0) = m ((c : Thread nD τ).loc main_arg0) := by
  show StableHlo.after hostOps0_2 (StableHlo.after hostOps0_1 (StableHlo.after hostOps0 (W0 m ρ c))) (Proc.devRef .tc main_arg0) = _
  after_results_simp <;> rfl
theorem W3_arg2 (c : Dev nD) : W3 m ρ c (Proc.devRef .tc main_arg2) = m ((c : Thread nD τ).loc main_arg2) := by
  show StableHlo.after hostOps0_2 (StableHlo.after hostOps0_1 (StableHlo.after hostOps0 (W0 m ρ c))) (Proc.devRef .tc main_arg2) = _
  after_results_simp <;> rfl
theorem W3_arg3 (c : Dev nD) : W3 m ρ c (Proc.devRef .tc main_arg3) = m ((c : Thread nD τ).loc main_arg3) := by
  show StableHlo.after hostOps0_2 (StableHlo.after hostOps0_1 (StableHlo.after hostOps0 (W0 m ρ c))) (Proc.devRef .tc main_arg3) = _
  after_results_simp <;> rfl
theorem W3_arg4 (c : Dev nD) : W3 m ρ c (Proc.devRef .tc main_arg4) = m ((c : Thread nD τ).loc main_arg4) := by
  show StableHlo.after hostOps0_2 (StableHlo.after hostOps0_1 (StableHlo.after hostOps0 (W0 m ρ c))) (Proc.devRef .tc main_arg4) = _
  after_results_simp <;> rfl
theorem W3_arg5 (c : Dev nD) : W3 m ρ c (Proc.devRef .tc main_arg5) = m ((c : Thread nD τ).loc main_arg5) := by
  show StableHlo.after hostOps0_2 (StableHlo.after hostOps0_1 (StableHlo.after hostOps0 (W0 m ρ c))) (Proc.devRef .tc main_arg5) = _
  after_results_simp <;> rfl
theorem W3_arg6 (c : Dev nD) : W3 m ρ c (Proc.devRef .tc main_arg6) = m ((c : Thread nD τ).loc main_arg6) := by
  show StableHlo.after hostOps0_2 (StableHlo.after hostOps0_1 (StableHlo.after hostOps0 (W0 m ρ c))) (Proc.devRef .tc main_arg6) = _
  after_results_simp <;> rfl
theorem W3_arg7 (c : Dev nD) : W3 m ρ c (Proc.devRef .tc main_arg7) = m ((c : Thread nD τ).loc main_arg7) := by
  show StableHlo.after hostOps0_2 (StableHlo.after hostOps0_1 (StableHlo.after hostOps0 (W0 m ρ c))) (Proc.devRef .tc main_arg7) = _
  after_results_simp <;> rfl
theorem W3_arg8 (c : Dev nD) : W3 m ρ c (Proc.devRef .tc main_arg8) = m ((c : Thread nD τ).loc main_arg8) := by
  show StableHlo.after hostOps0_2 (StableHlo.after hostOps0_1 (StableHlo.after hostOps0 (W0 m ρ c))) (Proc.devRef .tc main_arg8) = _
  after_results_simp <;> rfl
theorem W3_v3 (c : Dev nD) : W3 m ρ c (Proc.devRef .tc main_v3) = srcWords (m ((c : Thread nD τ).loc main_arg1)) := by
  show StableHlo.after hostOps0_2 (StableHlo.after hostOps0_1 (StableHlo.after hostOps0 (W0 m ρ c))) (Proc.devRef .tc main_v3) = _
  after_results_simp <;> rfl
theorem W3_v6 (c : Dev nD) : W3 m ρ c (Proc.devRef .tc main_v6) = dstWords (m ((c : Thread nD τ).loc main_arg1)) := by
  show StableHlo.after hostOps0_2 (StableHlo.after hostOps0_1 (StableHlo.after hostOps0 (W0 m ρ c))) (Proc.devRef .tc main_v6) = _
  after_results_simp <;> rfl
/-- The degrees after the first stretch. -/
theorem W1_v10 (c : Dev nD) : W1 m ρ c (Proc.devRef .tc main_v10) = degree (m ((c : Thread nD τ).loc main_arg1)) := by
  show StableHlo.after hostOps0 (W0 m ρ c) (Proc.devRef .tc main_v10) = _
  after_results_simp <;> rfl
/-- "The degree is positive", node by node, after the first stretch. -/
theorem W1_v12 (c : Dev nD) : W1 m ρ c (Proc.devRef .tc main_v12)
    = cmpf (F := Ideal) .ogt (degree (m ((c : Thread nD τ).loc main_arg1))) (broadcastInDim S50000 ![] bcast_S_S50000 (constant (F := Ideal) S_ .f32 0x00000000#32)) := by
  show StableHlo.after hostOps0 (W0 m ρ c) (Proc.devRef .tc main_v12) = _
  after_results_simp <;> rfl
/-- The inverse square roots of the degrees after the first stretch. -/
theorem W1_v13 (c : Dev nD) : W1 m ρ c (Proc.devRef .tc main_v13) = Host.rsqrt (F := Ideal) (degree (m ((c : Thread nD τ).loc main_arg1))) := by
  show StableHlo.after hostOps0 (W0 m ρ c) (Proc.devRef .tc main_v13) = _
  after_results_simp <;> rfl
/-- The zero the factors default to. -/
theorem W1_cst_2 (c : Dev nD) : W1 m ρ c (Proc.devRef .tc main_cst_2) = constant (F := Ideal) S_ .f32 0x00000000#32 := by
  show StableHlo.after hostOps0 (W0 m ρ c) (Proc.devRef .tc main_cst_2) = _
  after_results_simp <;> rfl
/-- The second stretch (the outlined selection), from ANY contents: the factors are the selection, node by node, of
    the inverse square roots where the condition holds and of the default elsewhere. -/
theorem selection_step (V : Valuation τ sig (Elt Ideal)) (A : IVec S50000 1) (B : FVec Ideal S50000 .f32) (C : FVec Ideal S_ .f32)
    (h12 : V (Proc.devRef .tc main_v12) = A) (h13 : V (Proc.devRef .tc main_v13) = B) (hc : V (Proc.devRef .tc main_cst_2) = C) :
    StableHlo.after hostOps0_1 V (Proc.devRef .tc main_v14) = select A B (broadcastInDim S50000 ![] bcast_S_S50000 C) := by
  after_results_simp
  rw [h12, h13, hc]
  rfl
/-- The third stretch, from ANY contents: the factors as a column. -/
theorem column_step (V : Valuation τ sig (Elt Ideal)) (A : FVec Ideal S50000 .f32) (h14 : V (Proc.devRef .tc main_v14) = A) :
    StableHlo.after hostOps0_2 V (Proc.devRef .tc main_v15) = shapeCast S50000x1 A shapeCasts_S50000_S50000x1 := by
  after_results_simp
  rw [h14]
  rfl
/-- The factors after the second stretch. -/
theorem W2_v14 (c : Dev nD) : W2 m ρ c (Proc.devRef .tc main_v14) = factor (m ((c : Thread nD τ).loc main_arg1)) :=
  selection_step (W1 m ρ c) _ _ _ (W1_v12 m ρ c) (W1_v13 m ρ c) (W1_cst_2 m ρ c)
theorem W3_v15 (c : Dev nD) : W3 m ρ c (Proc.devRef .tc main_v15) = factorCol (m ((c : Thread nD τ).loc main_arg1)) :=
  column_step (W2 m ρ c) _ (W2_v14 m ρ c)
/-! ## At the first pallas_call's exit -/

theorem W4_arg2 (c : Dev nD) : W4 m ρ c (Proc.devRef .tc main_arg2) = m ((c : Thread nD τ).loc main_arg2) :=
  (W4_of_ne m ρ c main_arg2 (by decide)).trans (W3_arg2 m ρ c)
theorem W4_arg4 (c : Dev nD) : W4 m ρ c (Proc.devRef .tc main_arg4) = m ((c : Thread nD τ).loc main_arg4) :=
  (W4_of_ne m ρ c main_arg4 (by decide)).trans (W3_arg4 m ρ c)
theorem W4_arg5 (c : Dev nD) : W4 m ρ c (Proc.devRef .tc main_arg5) = m ((c : Thread nD τ).loc main_arg5) :=
  (W4_of_ne m ρ c main_arg5 (by decide)).trans (W3_arg5 m ρ c)
theorem W4_arg6 (c : Dev nD) : W4 m ρ c (Proc.devRef .tc main_arg6) = m ((c : Thread nD τ).loc main_arg6) :=
  (W4_of_ne m ρ c main_arg6 (by decide)).trans (W3_arg6 m ρ c)
theorem W4_arg7 (c : Dev nD) : W4 m ρ c (Proc.devRef .tc main_arg7) = m ((c : Thread nD τ).loc main_arg7) :=
  (W4_of_ne m ρ c main_arg7 (by decide)).trans (W3_arg7 m ρ c)
theorem W4_arg8 (c : Dev nD) : W4 m ρ c (Proc.devRef .tc main_arg8) = m ((c : Thread nD τ).loc main_arg8) :=
  (W4_of_ne m ρ c main_arg8 (by decide)).trans (W3_arg8 m ρ c)
theorem W4_v3 (c : Dev nD) : W4 m ρ c (Proc.devRef .tc main_v3) = srcWords (m ((c : Thread nD τ).loc main_arg1)) :=
  (W4_of_ne m ρ c main_v3 (by decide)).trans (W3_v3 m ρ c)
theorem W4_v6 (c : Dev nD) : W4 m ρ c (Proc.devRef .tc main_v6) = dstWords (m ((c : Thread nD τ).loc main_arg1)) :=
  (W4_of_ne m ρ c main_v6 (by decide)).trans (W3_v6 m ρ c)
theorem W4_v15 (c : Dev nD) : W4 m ρ c (Proc.devRef .tc main_v15) = factorCol (m ((c : Thread nD τ).loc main_arg1)) :=
  (W4_arr m ρ c 2).trans (((dat0 (V3 m ρ) c).arrAt_in 2 rfl _).trans ((A_eq0 (V3 m ρ) c 2).trans (W3_v15 m ρ c)))
theorem W4_v16 (c : Dev nD) : W4 m ρ c (Proc.devRef .tc main_v16) = layer1Out m ρ c := W4_arr m ρ c 3

/-! ## At the second pallas_call's entry -/

theorem W5_arg2 (c : Dev nD) : W5 m ρ c (Proc.devRef .tc main_arg2) = m ((c : Thread nD τ).loc main_arg2) := by
  show StableHlo.after hostOps1 (W4 m ρ c) (Proc.devRef .tc main_arg2) = _
  after_results_simp
  exact W4_arg2 m ρ c
theorem W5_arg5 (c : Dev nD) : W5 m ρ c (Proc.devRef .tc main_arg5) = m ((c : Thread nD τ).loc main_arg5) := by
  show StableHlo.after hostOps1 (W4 m ρ c) (Proc.devRef .tc main_arg5) = _
  after_results_simp
  exact W4_arg5 m ρ c
theorem W5_arg6 (c : Dev nD) : W5 m ρ c (Proc.devRef .tc main_arg6) = m ((c : Thread nD τ).loc main_arg6) := by
  show StableHlo.after hostOps1 (W4 m ρ c) (Proc.devRef .tc main_arg6) = _
  after_results_simp
  exact W4_arg6 m ρ c
theorem W5_arg7 (c : Dev nD) : W5 m ρ c (Proc.devRef .tc main_arg7) = m ((c : Thread nD τ).loc main_arg7) := by
  show StableHlo.after hostOps1 (W4 m ρ c) (Proc.devRef .tc main_arg7) = _
  after_results_simp
  exact W4_arg7 m ρ c
theorem W5_arg8 (c : Dev nD) : W5 m ρ c (Proc.devRef .tc main_arg8) = m ((c : Thread nD τ).loc main_arg8) := by
  show StableHlo.after hostOps1 (W4 m ρ c) (Proc.devRef .tc main_arg8) = _
  after_results_simp
  exact W4_arg8 m ρ c
theorem W5_v3 (c : Dev nD) : W5 m ρ c (Proc.devRef .tc main_v3) = srcWords (m ((c : Thread nD τ).loc main_arg1)) := by
  show StableHlo.after hostOps1 (W4 m ρ c) (Proc.devRef .tc main_v3) = _
  after_results_simp
  exact W4_v3 m ρ c
theorem W5_v6 (c : Dev nD) : W5 m ρ c (Proc.devRef .tc main_v6) = dstWords (m ((c : Thread nD τ).loc main_arg1)) := by
  show StableHlo.after hostOps1 (W4 m ρ c) (Proc.devRef .tc main_v6) = _
  after_results_simp
  exact W4_v6 m ρ c
theorem W5_v15 (c : Dev nD) : W5 m ρ c (Proc.devRef .tc main_v15) = factorCol (m ((c : Thread nD τ).loc main_arg1)) := by
  show StableHlo.after hostOps1 (W4 m ρ c) (Proc.devRef .tc main_v15) = _
  after_results_simp
  exact W4_v15 m ρ c
theorem W5_v26 (c : Dev nD) : W5 m ρ c (Proc.devRef .tc main_v26) = aggregate (m ((c : Thread nD τ).loc main_arg1)) (layer1Out m ρ c) := by
  show StableHlo.after hostOps1 (W4 m ρ c) (Proc.devRef .tc main_v26) = _
  after_results_simp
  rw [W4_v6 m ρ c, W4_v3 m ρ c, W4_v16 m ρ c]
  rfl
theorem W5_v27 (c : Dev nD) : W5 m ρ c (Proc.devRef .tc main_v27) = shapeCast S1x128 (m ((c : Thread nD τ).loc main_arg4)) shapeCasts_S128_S1x128 := by
  show StableHlo.after hostOps1 (W4 m ρ c) (Proc.devRef .tc main_v27) = _
  after_results_simp
  rw [W4_arg4 m ρ c]
  rfl

/-! ## At the second pallas_call's exit -/

theorem W6_arg2 (c : Dev nD) : W6 m ρ c (Proc.devRef .tc main_arg2) = m ((c : Thread nD τ).loc main_arg2) :=
  (W6_of_ne m ρ c main_arg2 (by decide)).trans (W5_arg2 m ρ c)
theorem W6_arg6 (c : Dev nD) : W6 m ρ c (Proc.devRef .tc main_arg6) = m ((c : Thread nD τ).loc main_arg6) :=
  (W6_of_ne m ρ c main_arg6 (by decide)).trans (W5_arg6 m ρ c)
theorem W6_arg7 (c : Dev nD) : W6 m ρ c (Proc.devRef .tc main_arg7) = m ((c : Thread nD τ).loc main_arg7) :=
  (W6_of_ne m ρ c main_arg7 (by decide)).trans (W5_arg7 m ρ c)
theorem W6_arg8 (c : Dev nD) : W6 m ρ c (Proc.devRef .tc main_arg8) = m ((c : Thread nD τ).loc main_arg8) :=
  (W6_of_ne m ρ c main_arg8 (by decide)).trans (W5_arg8 m ρ c)
theorem W6_v3 (c : Dev nD) : W6 m ρ c (Proc.devRef .tc main_v3) = srcWords (m ((c : Thread nD τ).loc main_arg1)) :=
  (W6_of_ne m ρ c main_v3 (by decide)).trans (W5_v3 m ρ c)
theorem W6_v6 (c : Dev nD) : W6 m ρ c (Proc.devRef .tc main_v6) = dstWords (m ((c : Thread nD τ).loc main_arg1)) :=
  (W6_of_ne m ρ c main_v6 (by decide)).trans (W5_v6 m ρ c)
theorem W6_v15 (c : Dev nD) : W6 m ρ c (Proc.devRef .tc main_v15) = factorCol (m ((c : Thread nD τ).loc main_arg1)) :=
  (W6_arr m ρ c 1).trans (((dat1 (V5 m ρ) c).arrAt_in 1 rfl _).trans ((A_eq1 (V5 m ρ) c 1).trans (W5_v15 m ρ c)))
theorem W6_v28 (c : Dev nD) : W6 m ρ c (Proc.devRef .tc main_v28) = layer2Out m ρ c := W6_arr m ρ c 4

/-! ## The result -/

/-- The result array after the last stretch: the head over the second aggregation. -/
theorem W7_result (c : Dev nD) :
    W7 m ρ c (Proc.devRef .tc main_v63)
      = head (m ((c : Thread nD τ).loc main_arg2)) (aggregate (m ((c : Thread nD τ).loc main_arg1)) (layer2Out m ρ c)) (factorCol (m ((c : Thread nD τ).loc main_arg1)))
          (m ((c : Thread nD τ).loc main_arg6)) (m ((c : Thread nD τ).loc main_arg7)) (m ((c : Thread nD τ).loc main_arg8)) := by
  show StableHlo.after hostOps2 (W6 m ρ c) (Proc.devRef .tc main_v63) = _
  after_results_simp
  rw [W6_v6 m ρ c, W6_v3 m ρ c, W6_v28 m ρ c, W6_arg2 m ρ c, W6_v15 m ρ c, W6_arg6 m ρ c, W6_arg7 m ρ c, W6_arg8 m ρ c]
  rfl

end Cert.KernelIdeal.Boundary

end
-- ==== Proof.Layer1Array.lean ====
import proofs.«165701_j63737314673104_2_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

/-!
# The first region's output array in closed form

The first region runs over ten row blocks of 5000 rows. At each block it multiplies the block of the
left operand x (5000 × 256) by the whole right operand w (256 × 128), starting from a zero accumulator,
and scales row p of the product by the block's column entry d[p, 0]. This module shows that, whatever
the arrays hold when the region is entered, the output array (50000 × 128) ends holding, at row p and
column q,

  (∑ k < 256, x[p, k] * w[k, q]) * d[p, 0]

in the extended reals, with the products in exactly that order. Row r of the array is row r % 5000 of
block r / 5000.
-/

noncomputable section

namespace Cert.KernelIdeal.Layer1

open Cert.KernelIdeal Cert.KernelIdeal.Gen Idealize.ShloMosaic Idealize.ShloMosaic.ValueIdx
open Idealize.ShloMosaic.TcCoe Idealize.SL.Sem
open Idealize.ShloMosaic.Pipeline (Dat)
open scoped BigOperators

/-- The whole-array function: row p, column q is (sum over k of x[p,k] * w[k,q]) * d[p,0]. -/
def scaledProduct (x : S50000x256.Idx → EReal) (w : S256x128.Idx → EReal) (d : S50000x1.Idx → EReal) :
    S50000x128.Idx → EReal :=
  fun i => (∑ k : Fin 256, x (ix2 ⟨(i 0).val, idx2_lt0 i⟩ k) * w (ix2 k ⟨(i 1).val, idx2_lt1 i⟩))
    * d (ix2 ⟨(i 0).val, idx2_lt0 i⟩ 0)

/-- The whole-array function read at explicit coordinates. -/
theorem scaledProduct_apply (x : S50000x256.Idx → EReal) (w : S256x128.Idx → EReal) (d : S50000x1.Idx → EReal)
    (p : Fin 50000) (q : Fin 128) :
    scaledProduct x w d (ix2 p q) = (∑ k : Fin 256, x (ix2 p k) * w (ix2 k q)) * d (ix2 p 0) := rfl

/-- In the block product, the left operand's row coordinate is the output's row coordinate. -/
theorem lhs_row (i : S5000x128.Idx) (k : dot_S5000x256_S256x128_S5000x128_1_0_0_1_n_n.contr.Idx) :
    (dot_S5000x256_S256x128_S5000x128_1_0_0_1_n_n.lhsIdx i k 0).val = (i 0).val := by
  unfold DotDims.lhsIdx
  rw [dif_neg (show ¬(0 : Fin S5000x256.rank) ∈ dot_S5000x256_S256x128_S5000x128_1_0_0_1_n_n.lhsBatch by decide),
    dif_pos (show (0 : Fin S5000x256.rank) ∈ dot_S5000x256_S256x128_S5000x128_1_0_0_1_n_n.lhsNonContracting by decide)]
  rfl

/-- In the block product, the right operand's column coordinate is the output's column coordinate. -/
theorem rhs_col (i : S5000x128.Idx) (k : dot_S5000x256_S256x128_S5000x128_1_0_0_1_n_n.contr.Idx) :
    (dot_S5000x256_S256x128_S5000x128_1_0_0_1_n_n.rhsIdx i k 1).val = (i 1).val := by
  unfold DotDims.rhsIdx
  rw [dif_neg (show ¬(1 : Fin S256x128.rank) ∈ dot_S5000x256_S256x128_S5000x128_1_0_0_1_n_n.rhsBatch by decide),
    dif_pos (show (1 : Fin S256x128.rank) ∈ dot_S5000x256_S256x128_S5000x128_1_0_0_1_n_n.rhsNonContracting by decide)]
  rfl

/-- The block matrix product with a zero accumulator, read at row p and column q, is the sum over the
    contraction coordinate of the products of the operands' entries. -/
theorem blockMatmul_apply (x0 : Vec Ideal S5000x256 .f32) (x1 : Vec Ideal S256x128 .f32) (p : Fin 5000) (q : Fin 128) :
    (matmul dot_S5000x256_S256x128_S5000x128_1_0_0_1_n_n none (truncf .bf16 x0 bitsLt_bf16_f32)
      (truncf .bf16 x1 bitsLt_bf16_f32) (constant (F := Ideal) S5000x128 .f32 0x00000000#32) : FVec Ideal S5000x128 .f32) (ix2 p q)
      = ∑ k : Fin 256, x0 (ix2 p k) * x1 (ix2 k q) := by
  refine (Ideal.matmul_constant_zero_apply dot_S5000x256_S256x128_S5000x128_1_0_0_1_n_n none _ _ (ix2 p q)).trans ?_
  rw [← Equiv.sum_comp (contrEquiv1 dot_S5000x256_S256x128_S5000x128_1_0_0_1_n_n 256 rfl rfl).symm]
  refine Finset.sum_congr rfl fun k _ => ?_
  have hk := contrEquiv1_symm_val dot_S5000x256_S256x128_S5000x128_1_0_0_1_n_n 256 rfl rfl k
  have el : dot_S5000x256_S256x128_S5000x128_1_0_0_1_n_n.lhsIdx (ix2 p q)
      ((contrEquiv1 dot_S5000x256_S256x128_S5000x128_1_0_0_1_n_n 256 rfl rfl).symm k) = ix2 p k :=
    funext fun a => Fin.ext (by
      match a with
      | ⟨0, _⟩ => exact lhs_row _ _
      | ⟨1, _⟩ => exact (dot_S5000x256_S256x128_S5000x128_1_0_0_1_n_n.lhsIdx_val_of_single rfl _ _).trans hk)
  have er : dot_S5000x256_S256x128_S5000x128_1_0_0_1_n_n.rhsIdx (ix2 p q)
      ((contrEquiv1 dot_S5000x256_S256x128_S5000x128_1_0_0_1_n_n 256 rfl rfl).symm k) = ix2 k q :=
    funext fun a => Fin.ext (by
      match a with
      | ⟨0, _⟩ => exact (dot_S5000x256_S256x128_S5000x128_1_0_0_1_n_n.rhsIdx_val_of_single rfl _ _).trans hk
      | ⟨1, _⟩ => exact rhs_col _ _)
  rw [el, er]
  rfl

/-- The column of scale factors, spread along the rows, read at row p and column q, is its entry in row p. -/
theorem blockScale_apply (x2 : Vec Ideal S5000x1 .f32) (p : Fin 5000) (q : Fin 128) :
    broadcastTo S5000x128 (shapeCast S5000x1 x2 shapeCasts_S5000x1_S5000x1) broadcasts_S5000x1_S5000x128 (ix2 p q)
      = x2 (ix2 p 0) := by
  rw [shapeCast_self]
  refine broadcastTo_apply x2 broadcasts_S5000x1_S5000x128 (ix2 p q) (ix2 p 0) fun a => ?_
  match a with
  | ⟨0, _⟩ => rfl
  | ⟨1, _⟩ => rfl

/-- What the body computes from its three blocks, read at row p and column q of the block:
    the matrix product's entry times the row's scale factor. -/
theorem payload_apply (x0 : Vec Ideal S5000x256 .f32) (x1 : Vec Ideal S256x128 .f32) (x2 : Vec Ideal S5000x1 .f32)
    (p : Fin 5000) (q : Fin 128) :
    k0_pay1 (F := Ideal) x0 x1 x2 (ix2 p q) = (∑ k : Fin 256, x0 (ix2 p k) * x1 (ix2 k q)) * x2 (ix2 p 0) := by
  unfold k0_pay1
  exact congrArg₂ (· * ·) (blockMatmul_apply x0 x1 p q) (blockScale_apply x2 p q)

/-! ## From the blocks to the array -/

/-- The zero offsets of a whole-buffer access, as the constant function. -/
theorem zeroOffsets : (![0, 0] : Fin 2 → Nat) = fun _ => 0 := funext fun a => by fin_cases a <;> rfl

/-- The block indices at grid point t, decided over the ten points: the row-blocked operands and the
    output are at row block t and column block 0; the weight matrix is always at block (0, 0). -/
theorem blockIndex : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- If three blocks are the restrictions of three arrays X, W, D to row block n (W whole), along
    embeddings whose coordinates are (n * 5000 + row, column), then the body's value at row p and
    column q of the block is the whole-array function of X, W, D at the embedded index. -/
theorem block_value (X : S50000x256.Idx → EReal) (W : S256x128.Idx → EReal) (D : S50000x1.Idx → EReal)
    (x0 : Vec Ideal S5000x256 .f32) (x1 : Vec Ideal S256x128 .f32) (x2 : Vec Ideal S5000x1 .f32) (n : Nat)
    (e0 : S5000x256.Idx → S50000x256.Idx) (e1 : S256x128.Idx → S256x128.Idx) (e2 : S5000x1.Idx → S50000x1.Idx)
    (e3 : S5000x128.Idx → S50000x128.Idx)
    (h0 : ∀ y, x0 y = X (e0 y)) (h1 : ∀ y, x1 y = W (e1 y)) (h2 : ∀ y, x2 y = D (e2 y))
    (c0 : ∀ y, ((e0 y) 0).val = n * 5000 + (y 0).val ∧ ((e0 y) 1).val = (y 1).val)
    (c1 : ∀ y, ((e1 y) 0).val = (y 0).val ∧ ((e1 y) 1).val = (y 1).val)
    (c2 : ∀ y, ((e2 y) 0).val = n * 5000 + (y 0).val ∧ ((e2 y) 1).val = (y 1).val)
    (c3 : ∀ y, ((e3 y) 0).val = n * 5000 + (y 0).val ∧ ((e3 y) 1).val = (y 1).val)
    (p : Fin 5000) (q : Fin 128) :
    k0_pay1 (F := Ideal) x0 x1 x2 (ix2 p q) = scaledProduct X W D (e3 (ix2 p q)) := by
  rw [payload_apply]
  unfold scaledProduct
  have a0 : ∀ k : Fin 256, e0 (ix2 p k) = ix2 ⟨((e3 (ix2 p q)) 0).val, idx2_lt0 _⟩ k := fun k =>
    funext fun a => Fin.ext (by
      match a with
      | ⟨0, _⟩ => exact ((c0 (ix2 p k)).1).trans ((c3 (ix2 p q)).1).symm
      | ⟨1, _⟩ => exact (c0 (ix2 p k)).2)
  have a1 : ∀ k : Fin 256, e1 (ix2 k q) = ix2 k ⟨((e3 (ix2 p q)) 1).val, idx2_lt1 _⟩ := fun k =>
    funext fun a => Fin.ext (by
      match a with
      | ⟨0, _⟩ => exact (c1 (ix2 k q)).1
      | ⟨1, _⟩ => exact ((c1 (ix2 k q)).2).trans ((c3 (ix2 p q)).2).symm)
  have a2 : e2 (ix2 p 0) = ix2 ⟨((e3 (ix2 p q)) 0).val, idx2_lt0 _⟩ 0 :=
    funext fun a => Fin.ext (by
      match a with
      | ⟨0, _⟩ => exact ((c2 (ix2 p 0)).1).trans ((c3 (ix2 p q)).1).symm
      | ⟨1, _⟩ => exact (c2 (ix2 p 0)).2)
  exact congrArg₂ (· * ·)
    (Finset.sum_congr rfl fun k _ => congrArg₂ (· * ·) ((h0 _).trans (congrArg X (a0 k))) ((h1 _).trans (congrArg W (a1 k))))
    ((h2 _).trans (congrArg D a2))

section Array
variable (V : (c : Dev nD) → (b : Ref sig .tc) → Buf (Elt Ideal) ((c : Thread nD τ).loc b))

/-- What grid point t writes back to the output array is block t of the whole-array function of the
    three operand arrays as the region finds them. -/
theorem flushed_eq (c : Dev nD) (t : Fin cfg0.N) :
    (dat0 (F := Ideal) V c).flushed 3 t
      = ((cfg0.win 3).blk t).view.read (Elt Ideal) (scaledProduct (V c main_arg0) (V c main_arg3) (V c main_v15)) := by
  show (cfg0.win 3).cut (grid0.coords t) ((dat0 (F := Ideal) V c).after 3 t) = _
  rw [after0_3]
  unfold out0_3
  rw [View.canon_unit_zero zeroOffsets]
  simp only [View.ld_unit_zero (S := S5000x256) zeroOffsets, View.ld_unit_zero (S := S256x128) zeroOffsets,
    View.ld_unit_zero (S := S5000x1) zeroOffsets]
  obtain ⟨i00, i01, i10, i11, i20, i21, i30, i31⟩ := blockIndex t
  funext j
  obtain ⟨p, q, rfl⟩ : ∃ (p : Fin 5000) (q : Fin 128), j = ix2 p q := ⟨j 0, j 1, eq_ix2 j⟩
  show k0_pay1 (F := Ideal) (iblk0 V c 0 t) (iblk0 V c 1 t) (iblk0 V c 2 t) (ix2 p q)
    = scaledProduct (V c main_arg0) (V c main_arg3) (V c main_v15) (((cfg0.win 3).blk t).view.emb (ix2 p q))
  exact block_value (V c main_arg0) (V c main_arg3) (V c main_v15) (iblk0 V c 0 t) (iblk0 V c 1 t) (iblk0 V c 2 t) t.val
    (fun y => ((cfg0.win 0).blk t).view.emb y) (fun y => ((cfg0.win 1).blk t).view.emb y)
    (fun y => ((cfg0.win 2).blk t).view.emb y) (fun y => ((cfg0.win 3).blk t).view.emb y)
    (fun _ => rfl) (fun _ => rfl) (fun _ => rfl)
    (fun y => ⟨by show win0_0.index t (0 : Fin 2) * 5000 + 1 * (y 0).val = _; omega,
      by show win0_0.index t (1 : Fin 2) * 256 + 1 * (y 1).val = _; omega⟩)
    (fun y => ⟨by show win0_1.index t (0 : Fin 2) * 256 + 1 * (y 0).val = _; omega,
      by show win0_1.index t (1 : Fin 2) * 128 + 1 * (y 1).val = _; omega⟩)
    (fun y => ⟨by show win0_2.index t (0 : Fin 2) * 5000 + 1 * (y 0).val = _; omega,
      by show win0_2.index t (1 : Fin 2) * 1 + 1 * (y 1).val = _; omega⟩)
    (fun y => ⟨by show win0_3.index t (0 : Fin 2) * 5000 + 1 * (y 0).val = _; omega,
      by show win0_3.index t (1 : Fin 2) * 128 + 1 * (y 1).val = _; omega⟩)
    p q

/-- An index of the output array is in grid point t's block iff each coordinate is in the block's range. -/
theorem mem_blk (t : Fin cfg0.N) (i : S50000x128.Idx) :
    i ∈ ((cfg0.win 3).blk t).view.set ↔ ∀ a : Fin 2, win0_3.index t a * S5000x128.size a ≤ (i a).val
      ∧ (i a).val < win0_3.index t a * S5000x128.size a + S5000x128.size a := by
  show i ∈ ((View.whole main_v16).slice (win0_3.rect t)).set ↔ _
  rw [View.set_slice_whole, Rect.mem_set_unit]
  exact Iff.rfl

/-- Every index of the output array is in some grid point's block: row r is in row block r / 5000. -/
theorem cover (i : S50000x128.Idx) :
    ∃ t : Fin cfg0.N, (cfg0.win 3).flush t = true ∧ i ∈ ((cfg0.win 3).blk t).view.set := by
  have hi0 : (i 0).val < 50000 := idx2_lt0 i
  have hi1 : (i 1).val < 128 := idx2_lt1 i
  have ht : (i 0).val / 5000 < grid0.N := by rw [N_0]; omega
  obtain ⟨-, -, -, -, -, -, e0, e1⟩ := blockIndex ⟨(i 0).val / 5000, ht⟩
  have e0' : win0_3.index ⟨(i 0).val / 5000, ht⟩ (0 : Fin 2) = (i 0).val / 5000 := e0
  refine ⟨⟨(i 0).val / 5000, ht⟩, flush0_3 _, ?_⟩
  rw [mem_blk]
  intro a
  match a with
  | ⟨0, _⟩ =>
    show win0_3.index ⟨(i 0).val / 5000, ht⟩ (0 : Fin 2) * 5000 ≤ (i 0).val
      ∧ (i 0).val < win0_3.index ⟨(i 0).val / 5000, ht⟩ (0 : Fin 2) * 5000 + 5000
    omega
  | ⟨1, _⟩ =>
    show win0_3.index ⟨(i 0).val / 5000, ht⟩ (1 : Fin 2) * 128 ≤ (i 1).val
      ∧ (i 1).val < win0_3.index ⟨(i 0).val / 5000, ht⟩ (1 : Fin 2) * 128 + 128
    omega

/-- The output array after the ten grid points is the whole-array function of the three operand arrays
    as the region finds them: entry (p, q) is (sum over k of x[p,k] * w[k,q]) * d[p,0]. -/
theorem final (c : Dev nD) :
    (dat0 (F := Ideal) V c).arrAt 3 cfg0.N = scaledProduct (V c main_arg0) (V c main_arg3) (V c main_v15) :=
  (dat0 (F := Ideal) V c).arrAt_eq_of_cover 3 (scaledProduct (V c main_arg0) (V c main_arg3) (V c main_v15))
    (fun t _ => flushed_eq V c t) cover

end Array

end Cert.KernelIdeal.Layer1

end
-- ==== Proof.Layer2Array.lean ====
import proofs.«165701_j63737314673104_2_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Layer2

open Cert.KernelIdeal Cert.KernelIdeal.Gen Idealize.ShloMosaic Idealize.ShloMosaic.ValueIdx Idealize.ShloMosaic.TcCoe
open Idealize.SL Idealize.SL.Sem
open Idealize.ShloMosaic.Pipeline (Dat)
open scoped BigOperators

/-! ## The specification: one fused layer, index by index -/

/-- Entry `(p, q)` of the fused layer: the features of row `p` — the raw row scaled by the row's factor, shifted by the
    bias row and clipped below at the zero word — times column `q` of the weights, the sum scaled by the row's factor again. -/
def fusedAt (raw : S50000x128.Idx → EReal) (d : S50000x1.Idx → EReal) (b : S1x128.Idx → EReal) (w : S128x128.Idx → EReal)
    (p : Fin 50000) (q : Fin 128) : EReal :=
  (∑ k : Fin 128, max (raw (ix2 p k) * d (ix2 p 0) + b (ix2 0 k)) (Ideal.ofBits .f32 0x00000000#32) * w (ix2 k q)) * d (ix2 p 0)

/-- The fused layer as a whole array: `fusedAt` at the index's two coordinates. -/
def fusedLayer (raw : S50000x128.Idx → EReal) (d : S50000x1.Idx → EReal) (b : S1x128.Idx → EReal) (w : S128x128.Idx → EReal) :
    S50000x128.Idx → EReal :=
  fun i => fusedAt raw d b w (i 0) (i 1)

/-- The fused layer read at `(p, q)`: `(∑ₖ max (raw[p,k]·d[p] + b[k]) 0 · w[k,q]) · d[p]`, products and sums in this order. -/
theorem fusedLayer_apply (raw : S50000x128.Idx → EReal) (d : S50000x1.Idx → EReal) (b : S1x128.Idx → EReal) (w : S128x128.Idx → EReal)
    (p : Fin 50000) (q : Fin 128) :
    fusedLayer raw d b w (ix2 p q)
      = (∑ k : Fin 128, max (raw (ix2 p k) * d (ix2 p 0) + b (ix2 0 k)) (Ideal.ofBits .f32 0x00000000#32) * w (ix2 k q)) * d (ix2 p 0) := rfl

/-! ## The body's result block at an index -/

/-- A column `[a, 1]` broadcast along the lanes to `[a, b]` reads, at `(p, c)`, the column's entry of row `p`. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The left operand's row coordinate, at any contraction position, is the result's row. -/
theorem lhsIdx_row (i : S5000x128.Idx) (r : dot_S5000x128_S128x128_S5000x128_1_0_0_1_n_n.contr.Idx) :
    (dot_S5000x128_S128x128_S5000x128_1_0_0_1_n_n.lhsIdx i r 0).val = (i 0).val := by
  unfold DotDims.lhsIdx
  rw [dif_neg (show ¬(0 : Fin S5000x128.rank) ∈ dot_S5000x128_S128x128_S5000x128_1_0_0_1_n_n.lhsBatch by decide),
    dif_pos (show (0 : Fin S5000x128.rank) ∈ dot_S5000x128_S128x128_S5000x128_1_0_0_1_n_n.lhsNonContracting by decide)]
  rfl

/-- The left operand's column coordinate is the contraction position. -/
theorem lhsIdx_col (i : S5000x128.Idx) (r : dot_S5000x128_S128x128_S5000x128_1_0_0_1_n_n.contr.Idx) :
    (dot_S5000x128_S128x128_S5000x128_1_0_0_1_n_n.lhsIdx i r 1).val = (r ⟨0, by decide⟩).val :=
  dot_S5000x128_S128x128_S5000x128_1_0_0_1_n_n.lhsIdx_val_of_single rfl i r

/-- The right operand's row coordinate is the contraction position. -/
theorem rhsIdx_row (i : S5000x128.Idx) (r : dot_S5000x128_S128x128_S5000x128_1_0_0_1_n_n.contr.Idx) :
    (dot_S5000x128_S128x128_S5000x128_1_0_0_1_n_n.rhsIdx i r 0).val = (r ⟨0, by decide⟩).val :=
  dot_S5000x128_S128x128_S5000x128_1_0_0_1_n_n.rhsIdx_val_of_single rfl i r

/-- The right operand's column coordinate, at any contraction position, is the result's column. -/
theorem rhsIdx_col (i : S5000x128.Idx) (r : dot_S5000x128_S128x128_S5000x128_1_0_0_1_n_n.contr.Idx) :
    (dot_S5000x128_S128x128_S5000x128_1_0_0_1_n_n.rhsIdx i r 1).val = (i 1).val := by
  unfold DotDims.rhsIdx
  rw [dif_neg (show ¬(1 : Fin S128x128.rank) ∈ dot_S5000x128_S128x128_S5000x128_1_0_0_1_n_n.rhsBatch by decide),
    dif_pos (show (1 : Fin S128x128.rank) ∈ dot_S5000x128_S128x128_S5000x128_1_0_0_1_n_n.rhsNonContracting by decide)]
  rfl

/-- The left operand's index of the product at result `(p, q)` and contraction position `k` is `(p, k)`. -/
theorem lhsIdx_eq (p : Fin 5000) (q : Fin 128) (k : Fin 128) :
    dot_S5000x128_S128x128_S5000x128_1_0_0_1_n_n.lhsIdx (ix2 p q)
      ((contrEquiv1 dot_S5000x128_S128x128_S5000x128_1_0_0_1_n_n 128 rfl rfl).symm k) = ix2 p k := by
  have hk := contrEquiv1_symm_val dot_S5000x128_S128x128_S5000x128_1_0_0_1_n_n 128 rfl rfl k
  exact funext fun a => Fin.ext (by
    match a with
    | ⟨0, _⟩ => exact lhsIdx_row _ _
    | ⟨1, _⟩ => exact (lhsIdx_col _ _).trans hk)

/-- The right operand's index of the product at result `(p, q)` and contraction position `k` is `(k, q)`. -/
theorem rhsIdx_eq (p : Fin 5000) (q : Fin 128) (k : Fin 128) :
    dot_S5000x128_S128x128_S5000x128_1_0_0_1_n_n.rhsIdx (ix2 p q)
      ((contrEquiv1 dot_S5000x128_S128x128_S5000x128_1_0_0_1_n_n 128 rfl rfl).symm k) = ix2 k q := by
  have hk := contrEquiv1_symm_val dot_S5000x128_S128x128_S5000x128_1_0_0_1_n_n 128 rfl rfl k
  exact funext fun a => Fin.ext (by
    match a with
    | ⟨0, _⟩ => exact (rhsIdx_row _ _).trans hk
    | ⟨1, _⟩ => exact rhsIdx_col _ _)

/-- The body's result block at `(p, q)`, from the four blocks it loads: the features of the block's row `p` against
    column `q` of the weights, scaled by the row's factor. -/
theorem payload_apply (x0 : Vec Ideal S5000x128 .f32) (x1 : Vec Ideal S5000x1 .f32) (x2 : Vec Ideal S1x128 .f32)
    (x3 : Vec Ideal S128x128 .f32) (p : Fin 5000) (q : Fin 128) :
    k1_pay1 (F := Ideal) x0 x1 x2 x3 (ix2 p q)
      = (∑ k : Fin 128, max (x0 (ix2 p k) * x1 (ix2 p 0) + x2 (ix2 0 k)) (Ideal.ofBits .f32 0x00000000#32) * x3 (ix2 k q)) * x1 (ix2 p 0) := by
  unfold k1_pay1
  simp only [shapeCast_self]
  rw [mulf_apply, broadcastTo_a1_ab_apply]
  congr 1
  simp only [matmul]
  rw [Ideal.matmul_constant_zero_apply, ← Equiv.sum_comp (contrEquiv1 dot_S5000x128_S128x128_S5000x128_1_0_0_1_n_n 128 rfl rfl).symm]
  refine Finset.sum_congr rfl fun k _ => ?_
  rw [lhsIdx_eq, rhsIdx_eq]
  show max (x0 (ix2 p k) * broadcastTo S5000x128 x1 _ (ix2 p k) + broadcastTo S5000x128 x2 _ (ix2 p k)) (Ideal.ofBits .f32 0x00000000#32) * x3 (ix2 k q) = _
  rw [broadcastTo_a1_ab_apply, broadcastTo_1b_ab_apply]

/-! ## From the blocks to the array -/

/-- Row `p` of row block `T` is row `5000·T + p` of the array. -/
def rowOf (T : Fin 10) (p : Fin 5000) : Fin 50000 := ⟨T.val * 5000 + p.val, by have := T.isLt; have := p.isLt; omega⟩

/-- The body's result block from blocks that are row block `T` of the raw rows and of the row factors, and the whole
    bias row and weights, is row block `T` of the fused layer. -/
theorem payload_eq_fusedLayer (raw : S50000x128.Idx → EReal) (d : S50000x1.Idx → EReal) (b : S1x128.Idx → EReal) (w : S128x128.Idx → EReal)
    (T : Fin 10) (x0 : Vec Ideal S5000x128 .f32) (x1 : Vec Ideal S5000x1 .f32) (x2 : Vec Ideal S1x128 .f32) (x3 : Vec Ideal S128x128 .f32)
    (h0 : ∀ (p : Fin 5000) (k : Fin 128), x0 (ix2 p k) = raw (ix2 (rowOf T p) k))
    (h1 : ∀ p : Fin 5000, x1 (ix2 p 0) = d (ix2 (rowOf T p) 0))
    (h2 : ∀ k : Fin 128, x2 (ix2 0 k) = b (ix2 0 k))
    (h3 : ∀ k q : Fin 128, x3 (ix2 k q) = w (ix2 k q))
    (p : Fin 5000) (q : Fin 128) :
    k1_pay1 (F := Ideal) x0 x1 x2 x3 (ix2 p q) = fusedLayer raw d b w (ix2 (rowOf T p) q) := by
  rw [payload_apply, fusedLayer_apply, h1]
  congr 1
  refine Finset.sum_congr rfl fun k _ => ?_
  rw [h0, h2, h3]

/-- The zero offsets of a whole-buffer access, as the constant function. -/
theorem offsets_zero : (![0, 0] : Fin 2 → Nat) = fun _ => 0 := funext fun a => by fin_cases a <;> rfl

/-- The printed index maps, decided over the ten grid points: the raw rows, the row factors and the output move together,
    one row block per point; the bias row and the weights stay at block zero. -/
theorem index_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- A grid point as a row-block number. -/
def blockOf (t : Fin cfg1.N) : Fin 10 := ⟨t.val, lt_of_lt_of_eq t.isLt N_1⟩

/-- What grid point `t` writes back is row block `t` of the fused layer of the four arrays as the region finds them. -/
theorem flushed_eq (V : (c : Dev nD) → (b : Ref sig .tc) → Buf (Elt Ideal) ((c : Thread nD τ).loc b)) (c : Dev nD) (t : Fin cfg1.N) :
    (dat1 (F := Ideal) V c).flushed 4 t
      = ((cfg1.win 4).blk t).view.read (Elt Ideal) (fusedLayer (V c main_v26) (V c main_v15) (V c main_v27) (V c main_arg5)) := by
  show (cfg1.win 4).cut (grid1.coords t) ((dat1 (F := Ideal) V c).after 4 t) = _
  rw [after1_4]
  unfold out1_4
  rw [View.canon_unit_zero offsets_zero]
  simp only [View.ld_unit_zero (S := S5000x128) offsets_zero, View.ld_unit_zero (S := S5000x1) offsets_zero,
    View.ld_unit_zero (S := S1x128) offsets_zero, View.ld_unit_zero (S := S128x128) offsets_zero]
  obtain ⟨e00, e01, e10, e11, e20, e21, e30, e31, e40, e41⟩ := index_facts t
  refine funext fun (j : S5000x128.Idx) => ?_
  obtain ⟨p, q, rfl⟩ : ∃ (p : Fin 5000) (q : Fin 128), j = ix2 p q := ⟨j 0, j 1, eq_ix2 j⟩
  refine (payload_eq_fusedLayer (V c main_v26) (V c main_v15) (V c main_v27) (V c main_arg5) (blockOf t)
    (iblk1 V c 0 t) (iblk1 V c 1 t) (iblk1 V c 2 t) (iblk1 V c 3 t) ?_ ?_ ?_ ?_ p q).trans ?_
  · intro p k
    show V c main_v26 (((cfg1.win 0).blk t).view.emb (ix2 p k)) = V c main_v26 (ix2 (rowOf (blockOf t) p) k)
    refine congrArg _ (funext fun a => Fin.ext ?_)
    match a with
    | ⟨0, _⟩ => show win1_0.index t (0 : Fin 2) * 5000 + 1 * p.val = t.val * 5000 + p.val; omega
    | ⟨1, _⟩ => show win1_0.index t (1 : Fin 2) * 128 + 1 * k.val = k.val; omega
  · intro p
    show V c main_v15 (((cfg1.win 1).blk t).view.emb (ix2 p 0)) = V c main_v15 (ix2 (rowOf (blockOf t) p) 0)
    refine congrArg _ (funext fun a => Fin.ext ?_)
    match a with
    | ⟨0, _⟩ => show win1_1.index t (0 : Fin 2) * 5000 + 1 * p.val = t.val * 5000 + p.val; omega
    | ⟨1, _⟩ => show win1_1.index t (1 : Fin 2) * 1 + 1 * 0 = 0; omega
  · intro k
    show V c main_v27 (((cfg1.win 2).blk t).view.emb (ix2 0 k)) = V c main_v27 (ix2 0 k)
    refine congrArg _ (funext fun a => Fin.ext ?_)
    match a with
    | ⟨0, _⟩ => show win1_2.index t (0 : Fin 2) * 1 + 1 * 0 = 0; omega
    | ⟨1, _⟩ => show win1_2.index t (1 : Fin 2) * 128 + 1 * k.val = k.val; omega
  · intro k q
    show V c main_arg5 (((cfg1.win 3).blk t).view.emb (ix2 k q)) = V c main_arg5 (ix2 k q)
    refine congrArg _ (funext fun a => Fin.ext ?_)
    match a with
    | ⟨0, _⟩ => show win1_3.index t (0 : Fin 2) * 128 + 1 * k.val = k.val; omega
    | ⟨1, _⟩ => show win1_3.index t (1 : Fin 2) * 128 + 1 * q.val = q.val; omega
  · show fusedLayer (V c main_v26) (V c main_v15) (V c main_v27) (V c main_arg5) (ix2 (rowOf (blockOf t) p) q)
      = fusedLayer (V c main_v26) (V c main_v15) (V c main_v27) (V c main_arg5) (((cfg1.win 4).blk t).view.emb (ix2 p q))
    refine congrArg _ (funext fun a => Fin.ext ?_)
    match a with
    | ⟨0, _⟩ => show t.val * 5000 + p.val = win1_4.index t (0 : Fin 2) * 5000 + 1 * p.val; omega
    | ⟨1, _⟩ => show q.val = win1_4.index t (1 : Fin 2) * 128 + 1 * q.val; omega

/-- An index of the output array is in point `t`'s block iff each coordinate is in the block's range on its axis. -/
theorem mem_blk (t : Fin cfg1.N) (i : S50000x128.Idx) :
    i ∈ ((cfg1.win 4).blk t).view.set ↔ ∀ a : Fin 2, win1_4.index t a * S5000x128.size a ≤ (i a).val ∧ (i a).val < win1_4.index t a * S5000x128.size a + S5000x128.size a := by
  show i ∈ ((View.whole main_v28).slice (win1_4.rect t)).set ↔ _
  rw [View.set_slice_whole, Rect.mem_set_unit]
  exact Iff.rfl

/-- The ten row blocks cover the output array: row `r` lies in the block of point `r / 5000`. -/
theorem cover (i : S50000x128.Idx) : ∃ t : Fin cfg1.N, (cfg1.win 4).flush t = true ∧ i ∈ ((cfg1.win 4).blk t).view.set := by
  have hi0 : (i 0).val < 50000 := idx2_lt0 i
  have hi1 : (i 1).val < 128 := idx2_lt1 i
  obtain ⟨t, ht⟩ : ∃ t : Fin cfg1.N, t.val = (i 0).val / 5000 :=
    ⟨⟨(i 0).val / 5000, lt_of_lt_of_eq (by omega : (i 0).val / 5000 < 10) N_1.symm⟩, rfl⟩
  obtain ⟨-, -, -, -, -, -, -, -, e40, e41⟩ := index_facts t
  refine ⟨t, flush1_4 t, ?_⟩
  rw [mem_blk]
  intro a
  match a with
  | ⟨0, _⟩ => show win1_4.index t (0 : Fin 2) * 5000 ≤ (i 0).val ∧ (i 0).val < win1_4.index t (0 : Fin 2) * 5000 + 5000; omega
  | ⟨1, _⟩ => show win1_4.index t (1 : Fin 2) * 128 ≤ (i 1).val ∧ (i 1).val < win1_4.index t (1 : Fin 2) * 128 + 128; omega

/-- THE ARRAY the second region leaves in its output: the fused layer of the raw rows, the row factors, the bias row and
    the weights as the region finds them, whatever those contents are. -/
theorem final (V : (c : Dev nD) → (b : Ref sig .tc) → Buf (Elt Ideal) ((c : Thread nD τ).loc b)) (c : Dev nD) :
    (dat1 (F := Ideal) V c).arrAt 4 cfg1.N = fusedLayer (V c main_v26) (V c main_v15) (V c main_v27) (V c main_arg5) :=
  (dat1 (F := Ideal) V c).arrAt_eq_of_cover 4 _ (fun t _ => flushed_eq V c t) cover

end Cert.KernelIdeal.Layer2

end
-- ==== Proof.KernelValue.lean ====
/-
  The idealized kernel's result as ONE pure function of its argument arrays.

  With `d` the column of the nodes' normalising factors: the first pallas_call leaves `(x·W1)·d` row by row; the host
  aggregates it over the edges; the second pallas_call leaves `(max(agg·d + b1, 0)·W2)·d`; the host aggregates again and,
  at the target rows, forms `max(agg·d + b2, 0)·Wr + br`.
-/
import proofs.«165701_j63737314673104_2_alg».proof.Proof.KernelBoundary
import proofs.«165701_j63737314673104_2_alg».proof.Proof.Layer1Array
import proofs.«165701_j63737314673104_2_alg».proof.Proof.Layer2Array

set_option maxRecDepth 16384

noncomputable section

namespace Cert.KernelIdeal.Boundary

open Cert.KernelIdeal Cert.KernelIdeal.Gen
open Idealize.ShloMosaic Idealize.ShloMosaic.TcCoe Idealize.SL.Sem Idealize.ShloMosaic.StableHlo

/-- The first layer's bias as a row. -/
def biasRow (b : FVec Ideal S128 .f32) : FVec Ideal S1x128 .f32 := shapeCast S1x128 b shapeCasts_S128_S1x128

/-- The kernel's result, from the argument arrays. -/
def kernelResult (x0 : FVec Ideal S50000x256 .f32) (x1 : IVec S2x800000 32) (x2 : IVec S4096 32) (x3 : FVec Ideal S256x128 .f32)
    (x4 : FVec Ideal S128 .f32) (x5 : FVec Ideal S128x128 .f32) (x6 : FVec Ideal S128 .f32) (x7 : FVec Ideal S128x12 .f32)
    (x8 : FVec Ideal S12 .f32) : FVec Ideal S4096x12 .f32 :=
  head x2
    (aggregate x1
      (Layer2.fusedLayer (aggregate x1 (Layer1.scaledProduct x0 x3 (factorCol x1))) (factorCol x1) (biasRow x4) x5))
    (factorCol x1) x6 x7 x8

variable (m : (ℓ : Loc nD τ sig) → Buf (Elt Ideal) ℓ) (ρ : Dev nD → PrngReg)

/-- The first pallas_call's output array, from the arguments. -/
theorem layer1Out_eq (c : Dev nD) :
    layer1Out m ρ c = Layer1.scaledProduct (m ((c : Thread nD τ).loc main_arg0)) (m ((c : Thread nD τ).loc main_arg3)) (factorCol (m ((c : Thread nD τ).loc main_arg1))) := by
  show (dat0 (V3 m ρ) c).arrAt 3 cfg0.N = _
  rw [Layer1.final (V3 m ρ) c]
  show Layer1.scaledProduct (W3 m ρ c (Proc.devRef .tc main_arg0)) (W3 m ρ c (Proc.devRef .tc main_arg3)) (W3 m ρ c (Proc.devRef .tc main_v15)) = _
  rw [W3_arg0 m ρ c, W3_arg3 m ρ c, W3_v15 m ρ c]

/-- The second pallas_call's output array, from the arguments. -/
theorem layer2Out_eq (c : Dev nD) :
    layer2Out m ρ c
      = Layer2.fusedLayer (aggregate (m ((c : Thread nD τ).loc main_arg1)) (Layer1.scaledProduct (m ((c : Thread nD τ).loc main_arg0)) (m ((c : Thread nD τ).loc main_arg3)) (factorCol (m ((c : Thread nD τ).loc main_arg1)))))
          (factorCol (m ((c : Thread nD τ).loc main_arg1))) (biasRow (m ((c : Thread nD τ).loc main_arg4))) (m ((c : Thread nD τ).loc main_arg5)) := by
  show (dat1 (V5 m ρ) c).arrAt 4 cfg1.N = _
  rw [Layer2.final (V5 m ρ) c]
  show Layer2.fusedLayer (W5 m ρ c (Proc.devRef .tc main_v26)) (W5 m ρ c (Proc.devRef .tc main_v15)) (W5 m ρ c (Proc.devRef .tc main_v27)) (W5 m ρ c (Proc.devRef .tc main_arg5)) = _
  rw [W5_v26 m ρ c, W5_v15 m ρ c, W5_v27 m ρ c, W5_arg5 m ρ c, layer1Out_eq m ρ c]
  rfl

/-- THE KERNEL'S RESULT: the result array after the last stretch is `kernelResult` of the launch arguments. -/
theorem result_eq (c : Dev nD) :
    W7 m ρ c (Proc.devRef .tc main_v63)
      = kernelResult (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  rw [W7_result m ρ c, layer2Out_eq m ρ c]
  rfl

end Cert.KernelIdeal.Boundary

end
-- ==== Proof.GatherScatterRows.lean ====
import Idealize.ShloMosaic.PureOps.ShapeOps
import Idealize.ShloMosaic.PureOps.Dims
import Idealize.ShloMosaic.Lib.ValueIdx

noncomputable section

namespace Cert.RowIndex

open Idealize.ShloMosaic Idealize.ShloMosaic.ValueIdx

/-- The row of an axis of extent `N` that a start word selects: the word read as a signed integer, negative values
    taken to row `0` and values past the last row to row `N - 1`. -/
def clampRow (N : Nat) (hN : 0 < N) {w : Nat} (b : BitVec w) : Fin N := ⟨min b.toInt.toNat (N - 1), by omega⟩

/-- A start word whose signed value is a natural number `k` below the extent selects row `k` itself. -/
theorem clampRow_of_toInt {N : Nat} (hN : 0 < N) {w : Nat} {b : BitVec w} {k : Nat} (h : b.toInt = (k : Int)) (hk : k < N) :
    clampRow N hN b = ⟨k, hk⟩ := by
  refine Fin.ext ?_
  show min b.toInt.toNat (N - 1) = k
  rw [h, Int.toNat_natCast]
  omega

/-! ## A gather of whole rows of a matrix -/

section Gather
variable {α : Type}

/-- The dimension numbers of a gather of whole rows: operand `[N, C]`, start indices `[R, 1]` (one row number per
    result row), result `[R, C]`; the row axis is collapsed and indexed, the column axis is the offset axis and is
    taken whole. Their conditions `wf` are decided on a program's literal shapes. -/
abbrev rowGather (N C R : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(e, c)`: the operand at column `c` of the row that the start word `idx[e, 0]` selects
    (read signed and clamped into `[0, N - 1]`). -/
theorem gather_rows_apply {N C R w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (e : Fin R) (c : Fin C) :
    Host.gather (rowGather N C R wf) x idx (ix2 e c) = x (ix2 (clampRow N hN (idx (ix2 e 0))) c) := by
  -- the row axis: the clamped start, no batching and no offset coordinate
  have row : (rowGather N C R wf).start (ix2 e c) idx (0 : Fin 2) + (rowGather N C R wf).batchCoord (ix2 e c) (0 : Fin 2)
      + (rowGather N C R wf).offCoord (ix2 e c) (0 : Fin 2) = min (idx (ix2 e 0)).toInt.toNat (N - 1) := by
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGather N C R wf).startIndexMap from List.mem_singleton.mpr rfl)]
    have hsi : (rowGather N C R wf).siIdx (ix2 e c) ⟨List.idxOf (0 : Fin 2) (rowGather N C R wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  -- the column axis: no start, no batching, the result's own column as offset coordinate
  have col : (rowGather N C R wf).start (ix2 e c) idx (1 : Fin 2) + (rowGather N C R wf).batchCoord (ix2 e c) (1 : Fin 2)
      + (rowGather N C R wf).offCoord (ix2 e c) (1 : Fin 2) = c.val := by
    have h1 : (1 : Fin 2) ∉ (rowGather N C R wf).startIndexMap := fun h =>
      absurd (congrArg Fin.val (List.mem_singleton.mp h)) Nat.one_ne_zero
    have hk : (1 : Fin 2) ∈ (rowGather N C R wf).sKept :=
      (GatherDims.mem_sKept _ _).mpr ⟨fun h => absurd (congrArg Fin.val (List.mem_singleton.mp h)) Nat.one_ne_zero,
        List.not_mem_nil⟩
    rw [GatherDims.batchCoord_eq_zero _ _ _ List.not_mem_nil]
    unfold GatherDims.start GatherDims.offCoord
    rw [dif_neg h1, dif_pos hk]
    simp only [Nat.add_zero, Nat.zero_add]
    rfl
  unfold Host.gather
  refine congrArg x ?_
  funext a
  refine Fin.ext ?_
  match a with
  | ⟨0, _⟩ => exact row
  | ⟨1, _⟩ => exact col

end Gather

/-! ## A gather of single entries of a vector, one start index per result entry -/

section GatherVec
variable {α : Type}

/-- The dimension numbers of a gather of entries of a vector: operand `[N]`, start indices `[R, 1]` (one entry number
    per result entry), result `[R]`; the one operand axis is collapsed and indexed, and there is no offset axis. Their
    conditions `wf` are decided on a program's literal shapes. -/
abbrev vecGather (N R : Nat) (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

/-- THE VECTOR GATHER READ AT `e`: the operand at the entry that the start word `idx[e, 0]` selects (read signed and
    clamped into `[0, N - 1]`). -/
theorem gather_vec_apply {N R w : Nat} (hN : 0 < N)
    (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ w) (e : Fin R) :
    Host.gather (vecGather N R wf) x idx (ix1 e) = x (ix1 (clampRow N hN (idx (ix2 e 0)))) := by
  unfold Host.gather
  refine congrArg x ?_
  funext a
  obtain rfl : a = 0 := Subsingleton.elim _ _
  refine Fin.ext ?_
  show (vecGather N R wf).start (ix1 e) idx 0 + (vecGather N R wf).batchCoord (ix1 e) 0
    + (vecGather N R wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGather N R wf).startIndexMap from List.mem_singleton.mpr rfl)]
  have hsi : (vecGather N R wf).siIdx (ix1 e) ⟨List.idxOf (0 : Fin 1) (vecGather N R wf).startIndexMap,
      List.idxOf_lt_length_iff.2 (List.mem_singleton.mpr rfl)⟩ = ix2 e 0 := by
    funext b; refine Fin.ext ?_
    match b with
    | ⟨0, _⟩ => rfl
    | ⟨1, _⟩ => rfl
  rw [hsi]
  rfl

end GatherVec

/-! ## A scatter of whole rows into a matrix -/

section Scatter

/-- An update lands on operand index `i` exactly when, on every operand axis, the window's start (read signed, not
    clamped) plus the window coordinate is `i`'s coordinate: the landing index is inside the operand by being `i`. -/
theorem resultIdx?_eq_some_iff {s si u : Shape} (d : ScatterDims s si u) {w : Nat} (j : u.Idx) (idx : IVec si w)
    (i : s.Idx) :
    d.resultIdx? j idx = some i ↔ ∀ a, d.start j idx a + (d.window j a : Int) = ((i a).val : Int) := by
  unfold ScatterDims.resultIdx?
  constructor
  · intro h a
    by_cases hin : ∀ a, 0 ≤ d.start j idx a + d.window j a ∧ d.start j idx a + d.window j a < s.size a
    · rw [dif_pos hin] at h
      have ha : (d.start j idx a + (d.window j a : Int)).toNat = (i a).val :=
        congrArg (fun f : s.Idx => (f a).val) (Option.some.inj h)
      have := (hin a).1
      omega
    · rw [dif_neg hin] at h
      exact absurd h.symm (Option.some_ne_none i)
  · intro h
    have hin : ∀ a, 0 ≤ d.start j idx a + d.window j a ∧ d.start j idx a + d.window j a < s.size a := fun a => by
      have := h a
      have := (i a).isLt
      omega
    rw [dif_pos hin]
    refine congrArg some ?_
    funext a
    refine Fin.ext ?_
    show (d.start j idx a + (d.window j a : Int)).toNat = (i a).val
    have := h a
    omega

/-- The dimension numbers of a scatter of whole rows: operand `[N, C]`, scatter indices `[R, 1]` (one row number per
    update row), updates `[R, C]`; the row axis is inserted and indexed, the updates' column axis is the window axis.
    Their conditions `wf` are decided on a program's literal shapes. -/
abbrev rowScatter (N C R : Nat) (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

/-- WHERE A ROW SCATTER'S UPDATE LANDS: update row `e`, column `c` lands on operand index `i` exactly when its start
    word `idx[e, 0]`, read signed (and not clamped), IS the row `i 0`, and the column `i 1` is `c`. (A start word
    that is negative or past the last row lands nowhere.) -/
theorem scatter_rows_lands {N C R w : Nat} (wf : ScatterDims.WF ⟨2, ![N, C]⟩ ⟨2, ![R, 1]⟩ ⟨2, ![R, C]⟩ [1] [0] [0] 1)
    (idx : IVec ⟨2, ![R, 1]⟩ w) (e : Fin R) (c : Fin C) (i : (⟨2, ![N, C]⟩ : Shape).Idx) :
    (rowScatter N C R wf).resultIdx? (ix2 e c) idx = some i ↔
      (idx (ix2 e 0)).toInt = ((i 0).val : Int) ∧ (i 1).val = c.val := by
  have n10 : ¬ (1 : Fin 2) ∈ [(0 : Fin 2)] := fun h =>
    absurd (congrArg Fin.val (List.mem_singleton.mp h)) Nat.one_ne_zero
  -- the row axis: the start word read signed, no window coordinate
  have hs0 : (rowScatter N C R wf).start (ix2 e c) idx (0 : Fin 2) = (idx (ix2 e 0)).toInt := by
    unfold ScatterDims.start
    rw [dif_pos (show (0 : Fin 2) ∈ (rowScatter N C R wf).scatterDimsToOperandDims from List.mem_singleton.mpr rfl)]
    have hsi : (rowScatter N C R wf).siIdx (ix2 e c) ⟨List.idxOf (0 : Fin 2) (rowScatter N C R wf).scatterDimsToOperandDims,
        List.idxOf_lt_length_iff.2 (List.mem_singleton.mpr rfl)⟩ = ix2 e 0 := by
      funext b; refine Fin.ext ?_
      match b with
      | ⟨0, _⟩ => rfl
      | ⟨1, _⟩ => rfl
    rw [hsi]
  have hw0 : (rowScatter N C R wf).window (ix2 e c) (0 : Fin 2) = 0 := by
    have hk : (0 : Fin 2) ∉ (rowScatter N C R wf).sKept := fun h =>
      absurd (List.mem_singleton.mpr rfl) (of_decide_eq_true (List.mem_filter.mp h).2)
    unfold ScatterDims.window
    rw [dif_neg hk]
  -- the column axis: no start, the update's own column as window coordinate
  have hs1 : (rowScatter N C R wf).start (ix2 e c) idx (1 : Fin 2) = 0 := by
    unfold ScatterDims.start
    rw [dif_neg n10]
  have hw1 : (rowScatter N C R wf).window (ix2 e c) (1 : Fin 2) = c.val := by
    have hk : (1 : Fin 2) ∈ (rowScatter N C R wf).sKept :=
      List.mem_filter.mpr ⟨List.mem_finRange _, by simpa using n10⟩
    unfold ScatterDims.window
    rw [dif_pos hk]
    rfl
  rw [resultIdx?_eq_some_iff]
  constructor
  · intro h
    have h0 := h (0 : Fin 2)
    have h1 := h (1 : Fin 2)
    rw [hs0, hw0] at h0
    rw [hs1, hw1] at h1
    exact ⟨by omega, by omega⟩
  · rintro ⟨h0, h1⟩ a
    match a with
    | ⟨0, _⟩ =>
      show (rowScatter N C R wf).start (ix2 e c) idx (0 : Fin 2) + ((rowScatter N C R wf).window (ix2 e c) (0 : Fin 2) : Int)
        = ((i (0 : Fin 2)).val : Int)
      rw [hs0, hw0]; omega
    | ⟨1, _⟩ =>
      show (rowScatter N C R wf).start (ix2 e c) idx (1 : Fin 2) + ((rowScatter N C R wf).window (ix2 e c) (1 : Fin 2) : Int)
        = ((i (1 : Fin 2)).val : Int)
      rw [hs1, hw1]; omega

end Scatter

end Cert.RowIndex

end
-- ==== Proof.SegmentLaw.lean ====
/-
  Two facts about the extended reals that the degree normalisation of a graph convolution rests on.

  A node's normalising factor is `d = 1/√deg` where the degree is positive and `0` elsewhere. Whatever extended real the
  degree is, that factor is a real number `≥ 0` (never an infinity): for a positive real degree it is `(√deg)⁻¹`, for
  `deg = +∞` the inverse square root is `0`, and where the degree is not positive the factor is the literal `0`.
  Multiplication by such a factor distributes over every finite sum of extended reals — also over sums that hold
  infinities of both signs, where distributivity by an arbitrary factor fails — so scaling a node's aggregated messages
  once is the same as scaling each message.
-/
import Mathlib.Data.EReal.Operations
import Idealize.ShloMosaic.PureOps.Ideal
import Idealize.ShloMosaic.PureOps.Ideal.Laws

noncomputable section

open scoped BigOperators

namespace Cert.SegmentLaw

open Idealize.ShloMosaic

/-- Multiplication by a factor `0 ≤ d < +∞` distributes over a finite sum of extended reals. -/
theorem sum_mul_of_nonneg_of_ne_top {ι : Type} (S : Finset ι) (a : ι → EReal) {d : EReal} (h0 : 0 ≤ d) (ht : d ≠ ⊤) :
    (∑ i ∈ S, a i) * d = ∑ i ∈ S, a i * d := by
  classical
  induction S using Finset.induction_on with
  | empty => simp
  | insert i S hi ih =>
    rw [Finset.sum_insert hi, Finset.sum_insert hi, EReal.right_distrib_of_nonneg_of_ne_top h0 ht, ih]

/-- The inverse square root of a positive extended real is a real number `≥ 0`: `(√r)⁻¹` at a real `r > 0`, `0` at `+∞`. -/
theorem rsqrt_bounds_of_pos {x : EReal} (hx : 0 < x) : 0 ≤ Ideal.rsqrt x ∧ Ideal.rsqrt x ≠ ⊤ := by
  induction x using EReal.rec with
  | bot => exact absurd hx (not_lt.mpr bot_le)
  | top => rw [Ideal.rsqrt_top]; exact ⟨le_refl _, EReal.zero_ne_top⟩
  | coe r =>
    have hr : 0 < r := by exact_mod_cast hx
    rw [Ideal.rsqrt_coe, if_neg (not_lt.mpr hr.le), if_neg hr.ne']
    exact ⟨by exact_mod_cast inv_nonneg.mpr (Real.sqrt_nonneg r), EReal.coe_ne_top _⟩

/-- The normalising factor — the inverse square root of the degree where the degree exceeds `z = 0`, and `z` elsewhere —
    is a real number `≥ 0`, whatever the degree. -/
theorem factor_bounds (deg z : EReal) (hz : z = 0) :
    0 ≤ Scalar.select (Ideal.cmp .ogt deg z) (Ideal.rsqrt deg) z
      ∧ Scalar.select (Ideal.cmp .ogt deg z) (Ideal.rsqrt deg) z ≠ ⊤ := by
  subst hz
  unfold Scalar.select Ideal.cmp
  by_cases h : (0 : EReal) < deg
  · rw [if_pos (by simp [h])]
    exact rsqrt_bounds_of_pos h
  · rw [if_neg (by simp [h])]
    exact ⟨le_refl _, EReal.zero_ne_top⟩

/-- The law of the degree normalisation. Over one node's incoming messages `u ∈ S`: scaling each message `h u` by
    its source's factor `s u`, summing, and scaling the sum by the node's own factor `d` is the same as scaling each
    message by the product `s u · t u` of its source's and its target's factors and summing — when every message in the
    segment has the node itself as target (`t u = d`) and `d` is a real number `≥ 0`. (The sums start from `z = 0`.) -/
theorem scaled_segment_sum {ι : Type} (S : Finset ι) (h s t : ι → EReal) {d z : EReal} (hz : z = 0)
    (h0 : 0 ≤ d) (ht : d ≠ ⊤) (hS : ∀ u ∈ S, t u = d) :
    (z + ∑ u ∈ S, h u * s u) * d = z + ∑ u ∈ S, h u * (s u * t u) := by
  subst hz
  rw [zero_add, zero_add, sum_mul_of_nonneg_of_ne_top S _ h0 ht]
  exact Finset.sum_congr rfl fun u hu => by rw [hS u hu, mul_assoc]

end Cert.SegmentLaw

end
-- ==== Proof.Aggregation.lean ====
/-
  One aggregation step of the graph convolution, read at an index, in both arrangements.

  With `D` the nodes' normalising factors, `s e` the source row of edge `e` and `t e` its target row (both as the gather
  reads them: the start word read signed, a negative word counted from the end, the result clamped into the node range),
  and "`e → j`" meaning that edge `e`'s target word, read signed and NOT clamped, is the node `j` (the scatter-add drops
  an edge whose target word is outside the node range):

    the reference sums, over the edges `e → j`, the message `H[s e, c] · (D[s e] · D[t e])`;
    the kernel sums the pre-scaled rows `HS[s e, c] = H[s e, c] · D[s e]` over the same edges and scales the sum by `D[j]`.

  For an edge `e → j` the target word is a node number, so it is not negative, its normalisation leaves it alone, the clamp
  leaves it alone, and `t e = j`. The node's own factor `D[j]` is a real number `≥ 0`, so it distributes over the sum.
-/
import proofs.«165701_j63737314673104_2_alg».proof.Proof.RefRead
import proofs.«165701_j63737314673104_2_alg».proof.Proof.GatherScatterRows
import proofs.«165701_j63737314673104_2_alg».proof.Proof.SegmentLaw

noncomputable section

namespace Cert.ReferenceIdeal.Aggregation

open Cert.ReferenceIdeal Cert.ReferenceIdeal.Read Cert.RowIndex
open Idealize.ShloMosaic Idealize.ShloMosaic.ValueIdx
open scoped BigOperators

/-! ## Words -/

/-- A word that is not negative is left alone by "a negative word counts from the end". -/
theorem wrap_of_nonneg (b : BitVec 32) (h : 0 ≤ b.toInt) :
    Scalar.select (IntOp.cmpi .slt b 0#32) (IntOp.addi b 50000#32) b = b := by
  have hs : b.slt 0#32 = false := by
    simp only [BitVec.slt, BitVec.toInt_zero, decide_eq_false_iff_not, not_lt]; exact h
  have hc : IntOp.cmpi .slt b 0#32 = 0#1 := by
    show BitVec.ofBool (b.slt 0#32) = 0#1
    rw [hs]; rfl
  rw [hc, select_zero]

/-! ## The factors -/

/-- Every node's normalising factor is a real number `≥ 0`. -/
theorem factor_bounds (x1 : IVec S2x800000 32) (i : S50000.Idx) :
    0 ≤ val_main_v14 (F := Ideal) x1 i ∧ val_main_v14 (F := Ideal) x1 i ≠ ⊤ := by
  have h := Cert.SegmentLaw.factor_bounds (val_main_v10 (F := Ideal) x1 i) (Ideal.ofBits .f32 0x00000000#32) Ideal.ofBits_zero_f32
  rw [val_main_v14_apply, val_main_v12_apply, val_main_v13_apply, val_main_v11_apply, val_main_cst_1_apply,
    val_main_call0_v1_apply, val_main_call0_v0_apply, val_main_cst_2_apply]
  generalize val_main_v10 (F := Ideal) x1 i = deg at h ⊢
  exact h

/-! ## The rows an edge reads and lands on -/

/-- The source row of edge `e`, as the gathers read it. -/
def srcRow (x1 : IVec S2x800000 32) (e : Fin 850000) : Fin 50000 :=
  clampRow 50000 (by decide) (val_main_v36 (F := Ideal) x1 (ix2 e 0))

/-- The target row of edge `e`, as the gather of the targets' factors reads it. -/
def dstRow (x1 : IVec S2x800000 32) (e : Fin 850000) : Fin 50000 :=
  clampRow 50000 (by decide) (val_main_v27 (F := Ideal) x1 (ix2 e 0))

/-- The scatter's start word of edge `e` is its target word. -/
theorem scatterWord (x1 : IVec S2x800000 32) (e : Fin 850000) :
    val_main_v42 (F := Ideal) x1 (ix2 e 0) = val_main_v6 (F := Ideal) x1 (ix1 e) := by
  rw [val_main_v42_apply]
  exact congrArg _ (funext fun a => match a with | ⟨0, _⟩ => rfl)

/-- The targets' gather's start word of edge `e` is its target word, a negative one counted from the end. -/
theorem dstWord (x1 : IVec S2x800000 32) (e : Fin 850000) :
    val_main_v27 (F := Ideal) x1 (ix2 e 0)
      = Scalar.select (IntOp.cmpi .slt (val_main_v6 (F := Ideal) x1 (ix1 e)) 0#32)
          (IntOp.addi (val_main_v6 (F := Ideal) x1 (ix1 e)) 50000#32) (val_main_v6 (F := Ideal) x1 (ix1 e)) := by
  rw [val_main_v27_apply]
  have hi : idx_main_v27 (ix2 e 0) = ix1 e := funext fun a => match a with | ⟨0, _⟩ => rfl
  rw [hi]
  rfl

/-- An edge that lands on node `j` has `j` as the target row its factor is gathered at. -/
theorem dstRow_of_lands (x1 : IVec S2x800000 32) (e : Fin 850000) (j : Fin 50000)
    (h : (val_main_v42 (F := Ideal) x1 (ix2 e 0)).toInt = (j.val : Int)) : dstRow x1 e = j := by
  unfold dstRow
  rw [scatterWord] at h
  rw [dstWord, wrap_of_nonneg _ (by rw [h]; exact Int.natCast_nonneg _)]
  exact clampRow_of_toInt (by decide) h j.isLt

/-! ## The messages at an edge -/

/-- The kernel's message of edge `e`, column `c`: the pre-scaled row of the source. -/
theorem gathered_scaled (x1 : IVec S2x800000 32) (HS H : FVec Ideal S50000x128 .f32)
    (hHS : ∀ (p : Fin 50000) (q : Fin 128), HS (ix2 p q) = H (ix2 p q) * val_main_v14 (F := Ideal) x1 (ix1 p))
    (e : Fin 850000) (c : Fin 128) :
    Host.gather gather_S50000x128_S850000x1_S850000x128_1_0_n_n_0_1_1128 HS (val_main_v36 (F := Ideal) x1) (ix2 e c)
      = H (ix2 (srcRow x1 e) c) * val_main_v14 (F := Ideal) x1 (ix1 (srcRow x1 e)) := by
  rw [← hHS]
  exact gather_rows_apply (N := 50000) (C := 128) (R := 850000) (by decide) _ HS _ e c

/-- The reference's message of edge `e`, column `c`: the source's row times the product of the two ends' factors. -/
theorem message (x1 : IVec S2x800000 32) (H : FVec Ideal S50000x128 .f32) (e : Fin 850000) (c : Fin 128) :
    mulf (F := Ideal) (Host.gather gather_S50000x128_S850000x1_S850000x128_1_0_n_n_0_1_1128 H (val_main_v36 (F := Ideal) x1))
        (val_main_v39 (F := Ideal) x1) (ix2 e c)
      = H (ix2 (srcRow x1 e) c)
          * (val_main_v14 (F := Ideal) x1 (ix1 (srcRow x1 e)) * val_main_v14 (F := Ideal) x1 (ix1 (dstRow x1 e))) := by
  rw [mulf_apply]
  have hg : Host.gather gather_S50000x128_S850000x1_S850000x128_1_0_n_n_0_1_1128 H (val_main_v36 (F := Ideal) x1) (ix2 e c)
      = H (ix2 (srcRow x1 e) c) :=
    gather_rows_apply (N := 50000) (C := 128) (R := 850000) (by decide) _ H _ e c
  have h39 : idx_main_v39 (ix2 e c) = ix2 e 0 := funext fun a => match a with | ⟨0, _⟩ => rfl | ⟨1, _⟩ => rfl
  have h38 : idx_main_v38 (ix2 e 0) = ix1 e := funext fun a => match a with | ⟨0, _⟩ => rfl
  have hs : Host.gather gather_S50000_S850000x1_S850000_n_0_n_n_0_1_1 (val_main_v14 (F := Ideal) x1) (val_main_v20 (F := Ideal) x1) (ix1 e)
      = val_main_v14 (F := Ideal) x1 (ix1 (srcRow x1 e)) :=
    gather_vec_apply (N := 50000) (R := 850000) (by decide) _ (val_main_v14 (F := Ideal) x1) _ e
  have hd : Host.gather gather_S50000_S850000x1_S850000_n_0_n_n_0_1_1 (val_main_v14 (F := Ideal) x1) (val_main_v27 (F := Ideal) x1) (ix1 e)
      = val_main_v14 (F := Ideal) x1 (ix1 (dstRow x1 e)) :=
    gather_vec_apply (N := 50000) (R := 850000) (by decide) _ (val_main_v14 (F := Ideal) x1) _ e
  rw [hg, val_main_v39_apply, h39, val_main_v38_apply, h38, val_main_v29_apply]
  show _ * (val_main_v21 (F := Ideal) x1 (ix1 e) * val_main_v28 (F := Ideal) x1 (ix1 e)) = _
  unfold val_main_v21 val_main_v28
  rw [hs, hd]

/-! ## The aggregation -/

/-- The host's accumulating scatter at an index: the operand's element plus the sum of the updates landing on it. -/
theorem scatterAdd_apply {s si su : Shape} {φ : FTy} (d : ScatterDims s si su) {w : Nat} (x : FVec Ideal s φ) (idx : IVec si w)
    (upd : FVec Ideal su φ) (i : s.Idx) :
    Host.scatterAdd (F := Ideal) d x idx upd i = Ideal.hostScatterAdd d x idx upd i := rfl

/-- The edge of an update index. -/
def edgeOf (u : S850000x128.Idx) : Fin 850000 := ⟨(u 0).val, idx2_lt0 u⟩
/-- The column of an update index. -/
def colOf (u : S850000x128.Idx) : Fin 128 := ⟨(u 1).val, idx2_lt1 u⟩
theorem eq_edge_col (u : S850000x128.Idx) : u = ix2 (edgeOf u) (colOf u) := eq_ix2 u

/-- The sums over ANY set of updates that all land on `(j, c)`: the pre-scaled rows summed and scaled by node `j`'s factor
    are the reference's messages summed. -/
theorem segment_identity (x1 : IVec S2x800000 32) (HS H : FVec Ideal S50000x128 .f32)
    (hHS : ∀ (p : Fin 50000) (q : Fin 128), HS (ix2 p q) = H (ix2 p q) * val_main_v14 (F := Ideal) x1 (ix1 p))
    (j : Fin 50000) (c : Fin 128) (S : Finset S850000x128.Idx)
    (hS : ∀ u ∈ S, scatter_S50000x128_S850000x1_S850000x128_1_0_0_1.resultIdx? u (val_main_v42 (F := Ideal) x1) = some (ix2 j c))
    (z : EReal) (hz : z = 0) :
    (z + ∑ u ∈ S, Host.gather gather_S50000x128_S850000x1_S850000x128_1_0_n_n_0_1_1128 HS (val_main_v36 (F := Ideal) x1) u)
        * val_main_v14 (F := Ideal) x1 (ix1 j)
      = z + ∑ u ∈ S, mulf (F := Ideal) (Host.gather gather_S50000x128_S850000x1_S850000x128_1_0_n_n_0_1_1128 H (val_main_v36 (F := Ideal) x1))
          (val_main_v39 (F := Ideal) x1) u := by
  have hd := factor_bounds x1 (ix1 j)
  have hk : ∀ u ∈ S, Host.gather gather_S50000x128_S850000x1_S850000x128_1_0_n_n_0_1_1128 HS (val_main_v36 (F := Ideal) x1) u
      = H (ix2 (srcRow x1 (edgeOf u)) (colOf u)) * val_main_v14 (F := Ideal) x1 (ix1 (srcRow x1 (edgeOf u))) :=
    fun u _ => (congrArg _ (eq_edge_col u)).trans (gathered_scaled x1 HS H hHS (edgeOf u) (colOf u))
  have hr : ∀ u ∈ S, mulf (F := Ideal) (Host.gather gather_S50000x128_S850000x1_S850000x128_1_0_n_n_0_1_1128 H (val_main_v36 (F := Ideal) x1))
        (val_main_v39 (F := Ideal) x1) u
      = H (ix2 (srcRow x1 (edgeOf u)) (colOf u))
          * (val_main_v14 (F := Ideal) x1 (ix1 (srcRow x1 (edgeOf u))) * val_main_v14 (F := Ideal) x1 (ix1 (dstRow x1 (edgeOf u)))) :=
    fun u _ => (congrArg _ (eq_edge_col u)).trans (message x1 H (edgeOf u) (colOf u))
  rw [Finset.sum_congr rfl hk, Finset.sum_congr rfl hr]
  refine Cert.SegmentLaw.scaled_segment_sum S _ _ _ hz hd.1 hd.2 fun u hu => ?_
  have hl := hS u hu
  rw [eq_edge_col u] at hl
  have h2 := (scatter_rows_lands (N := 50000) (C := 128) (R := 850000) _ (val_main_v42 (F := Ideal) x1) (edgeOf u) (colOf u) (ix2 j c)).mp hl
  rw [dstRow_of_lands x1 (edgeOf u) j h2.1]

/-- ONE AGGREGATION STEP, IN BOTH ARRANGEMENTS: the sum of the pre-scaled source rows over the edges landing on
    node `j`, scaled by the node's own factor, is the sum of the reference's messages over those edges. -/
theorem aggregate_scaled (x1 : IVec S2x800000 32) (HS H : FVec Ideal S50000x128 .f32)
    (hHS : ∀ (p : Fin 50000) (q : Fin 128), HS (ix2 p q) = H (ix2 p q) * val_main_v14 (F := Ideal) x1 (ix1 p))
    (j : Fin 50000) (c : Fin 128) :
    Host.scatterAdd (F := Ideal) scatter_S50000x128_S850000x1_S850000x128_1_0_0_1 (val_main_v41 (F := Ideal))
        (val_main_v42 (F := Ideal) x1)
        (Host.gather gather_S50000x128_S850000x1_S850000x128_1_0_n_n_0_1_1128 HS (val_main_v36 (F := Ideal) x1)) (ix2 j c)
      * val_main_v14 (F := Ideal) x1 (ix1 j)
    = Host.scatterAdd (F := Ideal) scatter_S50000x128_S850000x1_S850000x128_1_0_0_1 (val_main_v41 (F := Ideal))
        (val_main_v42 (F := Ideal) x1)
        (mulf (F := Ideal) (Host.gather gather_S50000x128_S850000x1_S850000x128_1_0_n_n_0_1_1128 H (val_main_v36 (F := Ideal) x1))
          (val_main_v39 (F := Ideal) x1)) (ix2 j c) := by
  have hz : val_main_v41 (F := Ideal) (ix2 j c) = 0 := by
    rw [val_main_v41_apply, val_main_cst_8_apply]; exact Ideal.ofBits_zero_f32
  rw [scatterAdd_apply, scatterAdd_apply]
  unfold Ideal.hostScatterAdd
  exact segment_identity x1 HS H hHS j c _ (fun u hu => (Finset.mem_filter.mp hu).2) _ hz

end Cert.ReferenceIdeal.Aggregation

end
-- ==== Proof.Equivalence.lean ====
/-
  The idealized kernel's result and the idealized reference's result are one function of the argument arrays.

  Both programs compute a two-layer graph convolution and a linear head at the target rows. They differ in where the
  degree normalisation is applied. With `D` the nodes' factors, `s e` / `t e` the source and target row of edge `e`, and
  "`e → j`" for an edge landing on node `j`, a layer's pre-activation at `(j, c)` is

      reference:  ∑_{e → j} H[s e, c] · (D[s e] · D[t e])  + b[c]
      kernel:    (∑_{e → j} (H[s e, c] · D[s e])) · D[j]   + b[c]      (the rows pre-scaled inside the pallas_call)

  with `H = x·W1` in the first layer and `H = max(pre₁, 0)·W2` in the second; these agree (Aggregation.lean). The head reads
  the second layer at the target rows only: the kernel gathers the aggregated rows and the factors first and then scales,
  adds the bias and clamps; the reference clamps every row and gathers after. A gather is a re-indexing of rows, so it
  commutes with what is done to each row.
-/
import proofs.«165701_j63737314673104_2_alg».proof.Proof.KernelValue
import proofs.«165701_j63737314673104_2_alg».proof.Proof.Aggregation
import Idealize.ShloMosaic.Lib.ValueLayout

noncomputable section

namespace Cert.Equivalence

open Cert.KernelIdeal Cert.KernelIdeal.Gen Cert.KernelIdeal.Boundary
open Cert.ReferenceIdeal.Read Cert.ReferenceIdeal.Aggregation Cert.RowIndex
open Idealize.ShloMosaic Idealize.ShloMosaic.ValueIdx
open scoped BigOperators

/-! ## Layout reads -/

section Layout
variable {α : Type}

/-- An `[a]` array cast to a column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- A column `[4096, 1]` broadcast along the rows of `[4096, 128]` reads, at `(r, c)`, the column at `r`. -/
theorem bcast_col_apply (h : (⟨2, ![4096, 1]⟩ : Shape).BroadcastsInDim ⟨2, ![4096, 128]⟩ ![0, 1])
    (x : (⟨2, ![4096, 1]⟩ : Shape).Idx → α) (r : Fin 4096) (c : Fin 128) :
    broadcastInDim ⟨2, ![4096, 128]⟩ ![0, 1] h x (ix2 r c) = x (ix2 r 0) :=
  broadcastInDim_apply _ h x (ix2 r c) (ix2 r 0) (fun a => match a with
    | ⟨0, _⟩ => by show r.val = if (4096 : Nat) = 1 then 0 else r.val; rw [if_neg (by decide)]
    | ⟨1, _⟩ => by show (0 : Nat) = if (1 : Nat) = 1 then 0 else c.val; rw [if_pos rfl])

/-- A row `[1, 128]` broadcast down the columns of `[4096, 128]` reads, at `(r, c)`, the row at `c`. -/
theorem bcast_row_apply (h : (⟨2, ![1, 128]⟩ : Shape).BroadcastsInDim ⟨2, ![4096, 128]⟩ ![0, 1])
    (x : (⟨2, ![1, 128]⟩ : Shape).Idx → α) (r : Fin 4096) (c : Fin 128) :
    broadcastInDim ⟨2, ![4096, 128]⟩ ![0, 1] h x (ix2 r c) = x (ix2 0 c) :=
  broadcastInDim_apply _ h x (ix2 r c) (ix2 0 c) (fun a => match a with
    | ⟨0, _⟩ => by show (0 : Nat) = if (1 : Nat) = 1 then 0 else r.val; rw [if_pos rfl]
    | ⟨1, _⟩ => by show c.val = if (128 : Nat) = 1 then 0 else c.val; rw [if_neg (by decide)])

end Layout

/-! ## The two programs spell the shared values alike -/

theorem rowScatter_eq : Cert.KernelIdeal.scatter_S50000x128_S850000x1_S850000x128_1_0_0_1 = Cert.ReferenceIdeal.scatter_S50000x128_S850000x1_S850000x128_1_0_0_1 := rfl
theorem rowGather_eq : Cert.KernelIdeal.gather_S50000x128_S850000x1_S850000x128_1_0_n_n_0_1_1128 = Cert.ReferenceIdeal.gather_S50000x128_S850000x1_S850000x128_1_0_n_n_0_1_1128 := rfl
theorem degScatter_eq : Cert.KernelIdeal.scatter_S50000_S850000x1_S850000_n_0_0_1 = Cert.ReferenceIdeal.scatter_S50000_S850000x1_S850000_n_0_0_1 := rfl
theorem targetGather_eq : Cert.KernelIdeal.gather_S50000x128_S4096x1_S4096x128_1_0_n_n_0_1_1128 = Cert.ReferenceIdeal.gather_S50000x128_S4096x1_S4096x128_1_0_n_n_0_1_1128 := rfl
theorem headDot_eq : Cert.KernelIdeal.dot_S4096x128_S128x12_S4096x12_1_0_0_1_n_n = Cert.ReferenceIdeal.dot_S4096x128_S128x12_S4096x12_1_0_0_1_n_n := rfl

variable (x0 : FVec Ideal S50000x256 .f32) (x1 : IVec S2x800000 32) (x2 : IVec S4096 32) (x3 : FVec Ideal S256x128 .f32)
  (x4 : FVec Ideal S128 .f32) (x5 : FVec Ideal S128x128 .f32) (x6 : FVec Ideal S128 .f32) (x7 : FVec Ideal S128x12 .f32)
  (x8 : FVec Ideal S12 .f32)

theorem srcWords_eq : srcWords x1 = val_main_v3 (F := Ideal) x1 := rfl
theorem dstWords_eq : dstWords x1 = val_main_v6 (F := Ideal) x1 := rfl

theorem degree_eq : degree x1 = val_main_v10 (F := Ideal) x1 := by
  unfold degree val_main_v10 val_main_v9
  rw [dstWords_eq, degScatter_eq]
  rfl

theorem factor_eq : factor x1 = val_main_v14 (F := Ideal) x1 := by
  unfold factor val_main_v14 val_main_v12 val_main_v13
  rw [degree_eq]
  rfl

theorem srcStarts_eq : rowStarts (srcWords x1) = val_main_v36 (F := Ideal) x1 := by
  rw [srcWords_eq]
  rfl

theorem scatterStarts_eq :
    broadcastInDim S850000x1 ![0] bcast_S850000_S850000x1_0 (dstWords x1) = val_main_v42 (F := Ideal) x1 := by
  rw [dstWords_eq]
  rfl

theorem targetStarts_eq : targetStarts x2 = val_main_v101 (F := Ideal) x2 := rfl

/-- The kernel's aggregation in the reference's spelling. -/
theorem aggregate_eq (h : FVec Ideal S50000x128 .f32) :
    aggregate x1 h
      = Host.scatterAdd (F := Ideal) Cert.ReferenceIdeal.scatter_S50000x128_S850000x1_S850000x128_1_0_0_1 (val_main_v41 (F := Ideal)) (val_main_v42 (F := Ideal) x1)
          (Host.gather Cert.ReferenceIdeal.gather_S50000x128_S850000x1_S850000x128_1_0_n_n_0_1_1128 h (val_main_v36 (F := Ideal) x1)) := by
  unfold aggregate
  rw [scatterStarts_eq, srcStarts_eq, rowScatter_eq, rowGather_eq]
  rfl

/-- The factor column at a node is that node's factor. -/
theorem factorCol_apply (p : Fin 50000) : factorCol x1 (ix2 p 0) = val_main_v14 (F := Ideal) x1 (ix1 p) := by
  unfold factorCol
  rw [shapeCast_a_a1_apply, factor_eq]

/-- A bias as a row, at a column. -/
theorem biasRow_apply (b : FVec Ideal S128 .f32) (c : Fin 128) : biasRow b (ix2 0 c) = b (ix1 c) := by
  unfold biasRow
  exact shapeCast_a_1a_apply b _ 0 c

/-! ## The first layer -/

/-- The first pallas_call's rows are the reference's `x·W1` rows, each scaled by its node's factor. -/
theorem layer1_rows (p : Fin 50000) (q : Fin 128) :
    Layer1.scaledProduct x0 x3 (factorCol x1) (ix2 p q) = val_main_v30 (F := Ideal) x0 x3 (ix2 p q) * val_main_v14 (F := Ideal) x1 (ix1 p) := by
  rw [Layer1.scaledProduct_apply, val_main_v30_apply, factorCol_apply]
  have hl : ∀ k : Fin 256, lidx_main_v30 (ix2 p q) k = ix2 p k :=
    fun k => funext fun a => match a with | ⟨0, _⟩ => rfl | ⟨1, _⟩ => rfl
  have hr : ∀ k : Fin 256, ridx_main_v30 (ix2 p q) k = ix2 k q :=
    fun k => funext fun a => match a with | ⟨0, _⟩ => rfl | ⟨1, _⟩ => rfl
  simp only [hl, hr]

/-- The first layer's pre-activation: the kernel's aggregated rows, scaled and biased, are the reference's. -/
theorem pre1_eq (j : Fin 50000) (c : Fin 128) :
    aggregate x1 (Layer1.scaledProduct x0 x3 (factorCol x1)) (ix2 j c) * val_main_v14 (F := Ideal) x1 (ix1 j) + biasRow x4 (ix2 0 c)
      = val_main_v46 (F := Ideal) x0 x1 x3 x4 (ix2 j c) := by
  rw [aggregate_eq, aggregate_scaled x1 _ (val_main_v30 (F := Ideal) x0 x3) (layer1_rows x0 x1 x3) j c, biasRow_apply,
    val_main_v46_apply, val_main_v45_apply, val_main_v44_apply]
  have hi : idx_main_v44 (idx_main_v45 (ix2 j c)) = ix1 c := funext fun a => match a with | ⟨0, _⟩ => rfl
  rw [hi]
  rfl

/-! ## The second layer -/

/-- The second pallas_call's rows are the reference's `max(pre₁, 0)·W2` rows, each scaled by its node's factor. -/
theorem layer2_rows (p : Fin 50000) (q : Fin 128) :
    Layer2.fusedLayer (aggregate x1 (Layer1.scaledProduct x0 x3 (factorCol x1))) (factorCol x1) (biasRow x4) x5 (ix2 p q)
      = val_main_v78 (F := Ideal) x0 x1 x3 x4 x5 (ix2 p q) * val_main_v14 (F := Ideal) x1 (ix1 p) := by
  rw [Layer2.fusedLayer_apply, val_main_v78_apply, factorCol_apply]
  refine congrArg (fun s : EReal => s * val_main_v14 (F := Ideal) x1 (ix1 p)) (Finset.sum_congr rfl fun k _ => ?_)
  have hl : lidx_main_v78 (ix2 p q) k = ix2 p k := funext fun a => match a with | ⟨0, _⟩ => rfl | ⟨1, _⟩ => rfl
  have hr : ridx_main_v78 (ix2 p q) k = ix2 k q := funext fun a => match a with | ⟨0, _⟩ => rfl | ⟨1, _⟩ => rfl
  rw [hl, hr, pre1_eq x0 x1 x3 x4 p k, val_main_v47_apply, val_main_call1_v0_apply, val_main_call1_cst_apply]
  rfl

/-- The reference's second aggregation, in the first one's spelling (the reference recomputes the words, the degrees and
    the factors for its second layer: the same terms under other names). -/
theorem secondAggregate_eq :
    val_main_v91 (F := Ideal) x0 x1 x3 x4 x5
      = Host.scatterAdd (F := Ideal) (φ := .f32) Cert.ReferenceIdeal.scatter_S50000x128_S850000x1_S850000x128_1_0_0_1 (val_main_v41 (F := Ideal)) (val_main_v42 (F := Ideal) x1)
          (mulf (F := Ideal) (φ := .f32)
            (Host.gather Cert.ReferenceIdeal.gather_S50000x128_S850000x1_S850000x128_1_0_n_n_0_1_1128 (val_main_v78 (F := Ideal) x0 x1 x3 x4 x5 : FVec Ideal Cert.ReferenceIdeal.S50000x128 .f32) (val_main_v36 (F := Ideal) x1))
            (val_main_v39 (F := Ideal) x1)) := rfl

/-- The second layer's pre-activation. -/
theorem pre2_eq (j : Fin 50000) (c : Fin 128) :
    aggregate x1 (Layer2.fusedLayer (aggregate x1 (Layer1.scaledProduct x0 x3 (factorCol x1))) (factorCol x1) (biasRow x4) x5) (ix2 j c)
        * val_main_v14 (F := Ideal) x1 (ix1 j) + x6 (ix1 c)
      = val_main_v94 (F := Ideal) x0 x1 x3 x4 x5 x6 (ix2 j c) := by
  rw [aggregate_eq, aggregate_scaled x1 _ (val_main_v78 (F := Ideal) x0 x1 x3 x4 x5) (layer2_rows x0 x1 x3 x4 x5) j c,
    val_main_v94_apply, val_main_v93_apply, val_main_v92_apply, secondAggregate_eq]
  have hi : idx_main_v92 (idx_main_v93 (ix2 j c)) = ix1 c := funext fun a => match a with | ⟨0, _⟩ => rfl
  rw [hi]
  rfl

/-! ## The head -/

/-- The target row the head's gathers read for result row `r`. -/
def targetRow (r : Fin 4096) : Fin 50000 := clampRow 50000 (by decide) (targetStarts x2 (ix2 r 0))

/-- The head's rows: gathered, scaled, biased and clamped by the kernel; clamped and then gathered by the reference. -/
theorem headRows_eq :
    headRows x2
        (aggregate x1 (Layer2.fusedLayer (aggregate x1 (Layer1.scaledProduct x0 x3 (factorCol x1))) (factorCol x1) (biasRow x4) x5))
        (factorCol x1) x6
      = val_main_v102 (F := Ideal) x0 x1 x2 x3 x4 x5 x6 := by
  funext i
  obtain ⟨r, c, rfl⟩ : ∃ (r : Fin 4096) (c : Fin 128), i = ix2 r c := ⟨i 0, i 1, eq_ix2 i⟩
  have hk : headRows x2
        (aggregate x1 (Layer2.fusedLayer (aggregate x1 (Layer1.scaledProduct x0 x3 (factorCol x1))) (factorCol x1) (biasRow x4) x5))
        (factorCol x1) x6 (ix2 r c)
      = max (aggregate x1 (Layer2.fusedLayer (aggregate x1 (Layer1.scaledProduct x0 x3 (factorCol x1))) (factorCol x1) (biasRow x4) x5) (ix2 (targetRow x2 r) c)
              * factorCol x1 (ix2 (targetRow x2 r) 0) + x6 (ix1 c)) (Ideal.ofBits .f32 0x00000000#32) := by
    unfold headRows
    rw [maximumf_apply, addf_apply, mulf_apply, bcast_col_apply, bcast_row_apply, shapeCast_a_1a_apply]
    have hg1 : ∀ raw : FVec Ideal S50000x128 .f32,
        Host.gather gather_S50000x128_S4096x1_S4096x128_1_0_n_n_0_1_1128 raw (targetStarts x2) (ix2 r c)
          = raw (ix2 (targetRow x2 r) c) :=
      fun raw => gather_rows_apply (N := 50000) (C := 128) (R := 4096) (by decide) _ raw (targetStarts x2) r c
    have hg2 : Host.gather gather_S50000x1_S4096x1_S4096x1_1_0_n_n_0_1_11 (factorCol x1) (targetStarts x2) (ix2 r 0)
          = factorCol x1 (ix2 (targetRow x2 r) 0) :=
      gather_rows_apply (N := 50000) (C := 1) (R := 4096) (by decide) _ (factorCol x1) (targetStarts x2) r 0
    rw [hg1, hg2]
    rfl
  have hr : val_main_v102 (F := Ideal) x0 x1 x2 x3 x4 x5 x6 (ix2 r c)
      = val_main_v95 (F := Ideal) x0 x1 x3 x4 x5 x6 (ix2 (targetRow x2 r) c) := by
    unfold val_main_v102 targetRow
    rw [targetStarts_eq]
    exact gather_rows_apply (N := 50000) (C := 128) (R := 4096) (by decide) _ _ _ r c
  rw [hk, hr, factorCol_apply, pre2_eq x0 x1 x3 x4 x5 x6 (targetRow x2 r) c, val_main_v95_apply,
    val_main_call3_v0_apply, val_main_call3_cst_apply]
  rfl

/-- THE TWO RESULTS ARE ONE FUNCTION of the argument arrays. -/
theorem result_eq :
    kernelResult x0 x1 x2 x3 x4 x5 x6 x7 x8 = val_main_v106 (F := Ideal) x0 x1 x2 x3 x4 x5 x6 x7 x8 := by
  unfold kernelResult head val_main_v106 val_main_v103 val_main_v105 val_main_v104
  rw [headRows_eq x0 x1 x2 x3 x4 x5 x6, headDot_eq]

end Cert.Equivalence

end
-- ==== Proof.lean ====
/-
  A two-layer graph convolution with a linear head, as a Pallas kernel against its jnp reference: the two idealized
  programs end with equal results as extended reals.

  Nodes `0 … 49999`, edges given by source and target words (one self loop per node appended), `deg j` the number of
  edges whose target is `j`, `D j = 1/√(deg j)` where `deg j > 0` and `0` elsewhere. One convolution of features `X` with
  weights `W` and bias `b` is

      out[j, c] = ∑_{e → j} (X·W)[s e, c] · (D[s e] · D[t e]) + b[c]

  (`s e`, `t e` the rows the gathers read for edge `e`'s source and target; `e → j`: the edge's target word is node `j`).
  The reference computes exactly this, twice, with a clamp at zero after each, and then takes the target rows, multiplies
  by the head's matrix and adds its bias. The kernel moves the factors: its first pallas_call forms `(X·W1)·D` row by row,
  the host sums those rows over the edges, and the second pallas_call multiplies the sum by `D` again before adding the
  bias — it forms `(max(agg·D + b1, 0)·W2)·D` —; after the second sum the host scales, biases and clamps at the target
  rows only.

  The two agree because `D j` is always a real number `≥ 0` — whatever the degree is as an extended real, its inverse
  square root where it is positive is finite — and multiplication by such a factor distributes over every finite sum of
  extended reals; because on an edge that lands on node `j` the target row is `j`; and because a gather only re-indexes
  rows. No finiteness of the inputs is used.

  The modules: SegmentLaw (the factor and the distributive law), GatherScatterRows (a row gather and a row scatter read
  at an index), Aggregation (one aggregation step in both arrangements), Layer1Array / Layer2Array (what each
  pallas_call leaves in its output array, as one function of its input arrays), KernelBoundary / KernelValue (the
  kernel's result as one function of the arguments), ResultRun (the kernel's run with its result named), Equivalence
  (the two results are one function).
-/
import proofs.«165701_j63737314673104_2_alg».proof.Defs
import proofs.«165701_j63737314673104_2_alg».proof.Proof.Gen.Kernel
import proofs.«165701_j63737314673104_2_alg».proof.Proof.Gen.Kernel.Skeleton
import proofs.«165701_j63737314673104_2_alg».proof.Proof.Gen.Kernel.Launch
import proofs.«165701_j63737314673104_2_alg».proof.Proof.Gen.Kernel.Points
import proofs.«165701_j63737314673104_2_alg».proof.Proof.Gen.Kernel.Frame
import proofs.«165701_j63737314673104_2_alg».proof.Proof.Gen.KernelIdeal
import proofs.«165701_j63737314673104_2_alg».proof.Proof.Gen.KernelIdeal.Skeleton
import proofs.«165701_j63737314673104_2_alg».proof.Proof.Gen.KernelIdeal.Launch
import proofs.«165701_j63737314673104_2_alg».proof.Proof.Gen.KernelIdeal.Points
import proofs.«165701_j63737314673104_2_alg».proof.Proof.Gen.KernelIdeal.Frame
import proofs.«165701_j63737314673104_2_alg».proof.Proof.Gen.ReferenceIdeal
import proofs.«165701_j63737314673104_2_alg».proof.Proof.Gen.Pre_finite_inputs
import proofs.«165701_j63737314673104_2_alg».proof.Proof.ResultRun
import proofs.«165701_j63737314673104_2_alg».proof.Proof.Equivalence
import Idealize.ShloMosaic.Adequacy
import Idealize.ShloMosaic.Init

noncomputable section

namespace Cert.Proof

open Idealize.ShloMosaic Idealize.SL.Sem

/-- The word-level kernel runs and leaves its arguments unchanged. -/
theorem frame_kernel : Cert.frame_Kernel := fun m ρ _ => Cert.Kernel.Gen.frame m ρ

/-- The idealized kernel runs and leaves its arguments unchanged. -/
theorem frame_kernelIdeal : Cert.frame_KernelIdeal := fun m ρ _ => Cert.KernelIdeal.Gen.frame m ρ

/-- The idealized reference runs and leaves its arguments unchanged: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- The idealized kernel's run, its result as one function of the launch arguments. -/
theorem kernel_run (m : (ℓ : Loc Cert.KernelIdeal.nD Cert.KernelIdeal.τ Cert.KernelIdeal.sig) → Buf (Elt Ideal) ℓ) (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v63)
        = Cert.KernelIdeal.Boundary.kernelResult (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)) :=
  (θ_run (Cert.KernelIdeal.defs (F := Ideal)) _ _).mono
    (fun _ h c => ⟨(h c).1.trans (Cert.KernelIdeal.Boundary.result_eq m ρ c), (h c).2⟩)
    (Cert.KernelIdeal.ResultRun.run (F := Ideal) m ρ)

/-- From memories agreeing on the arguments both idealized programs run, and their results are equal: each is the same
    function of the arguments. -/
theorem algebraic : Cert.algebraic_KernelIdeal_ReferenceIdeal := by
  intro m ρ m' ρ' _ hagree
  refine ⟨_, kernel_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v106_eq, (hagree c).1, (hagree c).2.1, (hagree c).2.2.1, (hagree c).2.2.2.1,
    (hagree c).2.2.2.2.1, (hagree c).2.2.2.2.2.1, (hagree c).2.2.2.2.2.2.1, (hagree c).2.2.2.2.2.2.2.1,
    (hagree c).2.2.2.2.2.2.2.2]
  exact (Cert.Equivalence.result_eq (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
